-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128 .f32) (main_arg6 : FVec F S128 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x640000 32) (main_arg2 : FVec F S128x128 .f32) (main_arg3 : FVec F S128 .f32) (main_arg4 : FVec F S1 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1 : Shape := ⟨1, ![1]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S640000x128 : Shape := ⟨2, ![640000, 128]⟩
abbrev S100000x1 : Shape := ⟨2, ![100000, 1]⟩
abbrev S4000x128 : Shape := ⟨2, ![4000, 128]⟩
abbrev S4000x1 : Shape := ⟨2, ![4000, 1]⟩
abbrev S1x128 : Shape := ⟨2, ![1, 128]⟩
abbrev S4000 : Shape := ⟨1, ![4000]⟩

abbrev nBuf : Space → Nat
  | .hbm => 58
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .f32⟩
  | .hbm, ⟨12, _⟩ => ⟨S640000, .f32⟩
  | .hbm, ⟨13, _⟩ => ⟨S_, .f32⟩
  | .hbm, ⟨14, _⟩ => ⟨S100000, .f32⟩
  | .hbm, ⟨15, _⟩ => ⟨S640000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000, .f32⟩
  | .hbm, ⟨39, _⟩ => ⟨S640000, .f32⟩
  | .hbm, ⟨40, _⟩ => ⟨S640000x1, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S640000x128, .f32⟩
  | .hbm, ⟨51, _⟩ => ⟨S640000x128, .f32⟩
  | .hbm, ⟨52, _⟩ => ⟨S_, .f32⟩
  | .hbm, ⟨53, _⟩ => ⟨S100000x128, .f32⟩
  | .hbm, ⟨54, _⟩ => ⟨S640000x1, .i32⟩
  | .hbm, ⟨55, _⟩ => ⟨S100000x128, .f32⟩
  | .hbm, ⟨56, _⟩ => ⟨S100000x1, .f32⟩
  | .hbm, ⟨57, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128, .f32⟩
  | .local _ .vmem, ⟨8, _⟩ => ⟨S1, .f32⟩
  | .local _ .vmem, ⟨9, _⟩ => ⟨S128, .f32⟩
  | .local _ .vmem, ⟨10, _⟩ => ⟨S128, .f32⟩
  | .local _ .vmem, ⟨11, _⟩ => ⟨S4000x128, .f32⟩
  | .local _ .vmem, ⟨12, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S1_S1_0 : ∀ a, (![0] : Fin 1 → Nat) a + S1.size a ≤ S1.size a
  h_S1 : 0 < S1.numel
  inpos_S1_p0 : ∀ a, (![0] : Fin 1 → Nat) a < S1.size a
  reduces_S4000x128_S4000 : S4000x128.Reduces [1] S4000
  shapeCasts_S4000_S4000x1 : S4000.ShapeCasts S4000x1
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S100000x128.size a
  hwx0_8 : ∀ i : grid0.Coords, EltTy.bits .f32 = 32 ∨ (Rect.block (s := S100000x128) S4000x128.size (cc0_transform_8 i) (hinb0_8 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v38) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S4000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S1 : Shape := ⟨1, ![1]⟩
abbrev S1x640000 : Shape := ⟨2, ![1, 640000]⟩
abbrev S640000 : Shape := ⟨1, ![640000]⟩
abbrev S100000 : Shape := ⟨1, ![100000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S128, .f32⟩
  | .hbm, ⟨6, _⟩ => ⟨S128, .f32⟩
  | .hbm, ⟨7, _⟩ => ⟨S100000x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S100000, .i32⟩
  | .hbm, ⟨13, _⟩ => ⟨S740000, .i32⟩
  | .hbm, ⟨14, _⟩ => ⟨S740000, .i32⟩
  | .hbm, ⟨15, _⟩ => ⟨S_, .f32⟩
  | .hbm, ⟨16, _⟩ => ⟨S740000, .f32⟩
  | .hbm, ⟨17, _⟩ => ⟨S_, .f32⟩
  | .hbm, ⟨18, _⟩ => ⟨S100000, .f32⟩
  | .hbm, ⟨19, _⟩ => ⟨S740000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S740000, .i32⟩
  | .hbm, ⟨34, _⟩ => ⟨S740000, .i1⟩
  | .hbm, ⟨35, _⟩ => ⟨S_, .i32⟩
  | .hbm, ⟨36, _⟩ => ⟨S740000, .i32⟩
  | .hbm, ⟨37, _⟩ => ⟨S740000, .i32⟩
  | .hbm, ⟨38, _⟩ => ⟨S740000, .i32⟩
  | .hbm, ⟨39, _⟩ => ⟨S740000x1, .i32⟩
  | .hbm, ⟨40, _⟩ => ⟨S740000, .f32⟩
  | .hbm, ⟨41, _⟩ => ⟨S740000, .f32⟩
  | .hbm, ⟨42, _⟩ => ⟨S_, .i32⟩
  | .hbm, ⟨43, _⟩ => ⟨S740000, .i32⟩
  | .hbm, ⟨44, _⟩ => ⟨S740000, .i1⟩
  | .hbm, ⟨45, _⟩ => ⟨S_, .i32⟩
  | .hbm, ⟨46, _⟩ => ⟨S740000, .i32⟩
  | .hbm, ⟨47, _⟩ => ⟨S740000, .i32⟩
  | .hbm, ⟨48, _⟩ => ⟨S740000, .i32⟩
  | .hbm, ⟨49, _⟩ => ⟨S740000x1, .i32⟩
  | .hbm, ⟨50, _⟩ => ⟨S740000, .f32⟩
  | .hbm, ⟨51, _⟩ => ⟨S740000, .f32⟩
  | .hbm, ⟨52, _⟩ => ⟨S740000x1, .f32⟩
  | .hbm, ⟨53, _⟩ => ⟨S_, .i32⟩
  | .hbm, ⟨54, _⟩ => ⟨S740000, .i32⟩
  | .hbm, ⟨55, _⟩ => ⟨S740000, .i1⟩
  | .hbm, ⟨56, _⟩ => ⟨S_, .i32⟩
  | .hbm, ⟨57, _⟩ => ⟨S740000, .i32⟩
  | .hbm, ⟨58, _⟩ => ⟨S740000, .i32⟩
  | .hbm, ⟨59, _⟩ => ⟨S740000, .i32⟩
  | .hbm, ⟨60, _⟩ => ⟨S740000x1, .i32⟩
  | .hbm, ⟨61, _⟩ => ⟨S740000x128, .f32⟩
  | .hbm, ⟨62, _⟩ => ⟨S740000x128, .f32⟩
  | .hbm, ⟨63, _⟩ => ⟨S740000x128, .f32⟩
  | .hbm, ⟨64, _⟩ => ⟨S_, .f32⟩
  | .hbm, ⟨65, _⟩ => ⟨S100000x128, .f32⟩
  | .hbm, ⟨66, _⟩ => ⟨S740000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .i1⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000, .f32⟩
  | .hbm, ⟨80, _⟩ => ⟨S100000x1, .f32⟩
  | .hbm, ⟨81, _⟩ => ⟨S_, .f32⟩
  | .hbm, ⟨82, _⟩ => ⟨S100000x1, .f32⟩
  | .hbm, ⟨83, _⟩ => ⟨S100000x1, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000, .f32⟩
  | .hbm, ⟨89, _⟩ => ⟨S100000x1, .f32⟩
  | .hbm, ⟨90, _⟩ => ⟨S_, .f32⟩
  | .hbm, ⟨91, _⟩ => ⟨S100000x1, .f32⟩
  | .hbm, ⟨92, _⟩ => ⟨S100000x1, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S100000x1, .f32⟩
  | .hbm, ⟨97, _⟩ => ⟨S100000x1, .f32⟩
  | .hbm, ⟨98, _⟩ => ⟨S100000x1, .f32⟩
  | .hbm, ⟨99, _⟩ => ⟨S100000x128, .f32⟩
  | .hbm, ⟨100, _⟩ => ⟨S100000x128, .f32⟩
  | .hbm, ⟨101, _⟩ => ⟨S1x128, .f32⟩
  | .hbm, ⟨102, _⟩ => ⟨S100000x128, .f32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_15 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S100000_S740000_d0 : Shape.Concatenates [S640000, S100000] S740000 0
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S1_S_ : S1.ShapeCasts S_
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

class Facts : Prop extends Facts₀ where

variable [Facts]
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibLayerOrders.lean ====
/-
  One entry of a residual graph-convolution layer, in the two orders of multiplication the two programs use, and the
  law that joins them.

  For one output entry, let `a k` be the entry's row of the adjacency matrix, `x k j` the node features, `w j` the
  entry's column of the weights, `res` the entry of x added back and `β` the entry's bias. The kernel aggregates
  first, max (Σ_j (Σ_k a_k x_kj) w_j + res + β, 0); the reference projects first, max (Σ_k a_k (Σ_j x_kj w_j) + β + res, 0).
  The two double sums are one sum over (k, j) of a_k x_kj w_j once the product distributes over the inner sum,
  which on the extended reals holds for real entries (at an infinite entry a product with a sum of mixed signs need
  not distribute); the three addends are reordered by commutativity and associativity of addition alone.
-/
import Idealize.ShloMosaic.PureOps.Ideal.Laws
import Mathlib.Data.EReal.Basic
import Mathlib.Algebra.BigOperators.Ring.Finset

noncomputable section

open scoped BigOperators

namespace Cert.GraphLayer

variable {K J : Type} [Fintype K] [Fintype J]

/-- Aggregate over the neighbours first, then project: the kernel's order. -/
def aggregateFirst (a : K → EReal) (x : K → J → EReal) (w : J → EReal) (res β : EReal) : EReal :=
  max (((∑ j, (∑ k, a k * x k j) * w j) + res) + β) 0

/-- Project the features first, then aggregate: the reference's order. -/
def projectFirst (a : K → EReal) (x : K → J → EReal) (w : J → EReal) (res β : EReal) : EReal :=
  max (((∑ k, a k * (∑ j, x k j * w j)) + β) + res) 0

/-- The embedding of the reals commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Over the reals the two double sums are one: Σ_j (Σ_k a_k x_kj) w_j = Σ_k a_k (Σ_j x_kj w_j). -/
theorem sums_real (a : K → ℝ) (x : K → J → ℝ) (w : J → ℝ) :
    ∑ j, (∑ k, a k * x k j) * w j = ∑ k, a k * ∑ j, x k j * w j := by
  simp only [Finset.sum_mul, Finset.mul_sum]
  rw [Finset.sum_comm]
  exact Finset.sum_congr rfl fun k _ => Finset.sum_congr rfl fun j _ => by ring

/-- THE LAW: for real adjacency, feature and weight entries the two orders give one entry, whatever the residual and
    the bias entries are. -/
theorem aggregateFirst_eq_projectFirst (a : K → EReal) (x : K → J → EReal) (w : J → EReal) (res β : EReal)
    (ha : ∀ k, ∃ r : ℝ, a k = r) (hx : ∀ k j, ∃ r : ℝ, x k j = r) (hw : ∀ j, ∃ r : ℝ, w j = r) :
    aggregateFirst a x w res β = projectFirst a x w res β := by
  choose a' ha' using ha
  choose x' hx' using hx
  choose w' hw' using hw
  have hS : (∑ j, (∑ k, a k * x k j) * w j) = ∑ k, a k * (∑ j, x k j * w j) := by
    simp only [ha', hx', hw', ← EReal.coe_mul, ← coe_sum]
    exact congrArg _ (sums_real a' x' w')
  unfold aggregateFirst projectFirst
  rw [hS, add_right_comm]

end Cert.GraphLayer

end
-- ==== Proof.GraphSums.lean ====
/-
  One entry of a graph convolution with self-loops, in the two orders the two programs multiply in, and the law that
  joins them.

  Fix an output node and an output feature. Over the edges `e` that point at the node (`P e`), with edge weight `n e`
  and the source node's feature row `hs e k`; with the node's own row `hi k`, its weight `d` (the inverse square root of
  its degree) and the weight matrix's column `w k`: aggregating the rows first and projecting the sum,
    Σ_k ((Σ_{e, P e} n e · hs e k) + (d · d) · hi k) · w k,
  equals projecting every row first and aggregating, the node's own row entering as one more edge of weight d · 1 · d,
    (Σ_{e, P e} n e · Σ_k hs e k · w k) + (d · 1 · d) · Σ_k hi k · w k.
  Over the reals this is distributivity and an exchange of two finite sums. On the extended reals a product does not
  distribute over a sum of infinities of both signs, so the law is stated for real entries.
-/
import proofs.«122576_j79422535238247_2_alg».proof.Proof.LibLayerOrders

noncomputable section

open scoped BigOperators

namespace Cert.GraphSums

variable {E K : Type} [Fintype E] [Fintype K]

/-- Over the reals: aggregate-then-project equals project-then-aggregate, the self-loop as one more edge. -/
theorem real_orders (P : E → Prop) [DecidablePred P] (n : E → ℝ) (hs : E → K → ℝ) (hi w : K → ℝ) (d : ℝ) :
    ∑ k, ((∑ e, if P e then n e * hs e k else 0) + (d * d) * hi k) * w k
      = (∑ e, if P e then n e * ∑ k, hs e k * w k else 0) + (d * 1 * d) * ∑ k, hi k * w k := by
  have h1 : ∑ k, ((∑ e, if P e then n e * hs e k else 0) + (d * d) * hi k) * w k
      = (∑ k, (∑ e, if P e then n e * hs e k else 0) * w k) + ∑ k, (d * d) * hi k * w k := by
    rw [← Finset.sum_add_distrib]
    exact Finset.sum_congr rfl fun k _ => add_mul _ _ _
  have h2 : (∑ k, (∑ e, if P e then n e * hs e k else 0) * w k)
      = ∑ e, if P e then n e * ∑ k, hs e k * w k else 0 := by
    simp only [Finset.sum_mul]
    rw [Finset.sum_comm]
    refine Finset.sum_congr rfl fun e _ => ?_
    by_cases h : P e
    · simp only [h, if_true, Finset.mul_sum]
      exact Finset.sum_congr rfl fun k _ => by ring
    · simp only [h, if_false, zero_mul, Finset.sum_const_zero]
  have h3 : (∑ k, (d * d) * hi k * w k) = (d * 1 * d) * ∑ k, hi k * w k := by
    rw [Finset.mul_sum]
    exact Finset.sum_congr rfl fun k _ => by ring
  rw [h1, h2, h3]

/-- THE LAW on the extended reals, for real entries. -/
theorem ereal_orders (P : E → Prop) [DecidablePred P] (n : E → EReal) (hs : E → K → EReal) (hi w : K → EReal)
    (d : EReal) (hn : ∀ e, ∃ r : ℝ, n e = r) (hhs : ∀ e k, ∃ r : ℝ, hs e k = r) (hhi : ∀ k, ∃ r : ℝ, hi k = r)
    (hw : ∀ k, ∃ r : ℝ, w k = r) (hd : ∃ r : ℝ, d = r) :
    ∑ k, ((∑ e, if P e then n e * hs e k else 0) + (d * d) * hi k) * w k
      = (∑ e, if P e then n e * ∑ k, hs e k * w k else 0) + (d * 1 * d) * ∑ k, hi k * w k := by
  choose n' hn' using hn
  choose hs' hhs' using hhs
  choose hi' hhi' using hhi
  choose w' hw' using hw
  obtain ⟨d', hd'⟩ := hd
  have ite_coe : ∀ (p : Prop) [Decidable p] (a : ℝ), (if p then (a : EReal) else 0) = ((if p then a else 0 : ℝ) : EReal) := by
    intro p _ a
    by_cases h : p
    · simp only [h, if_true]
    · simp only [h, if_false, EReal.coe_zero]
  have one_coe : (1 : EReal) = ((1 : ℝ) : EReal) := rfl
  simp only [hn', hhs', hhi', hw', hd', one_coe, ← EReal.coe_mul, ← Cert.GraphLayer.coe_sum, ite_coe, ← EReal.coe_add]
  exact congrArg _ (real_orders P n' hs' hi' w' d')

/-- A finite sum of real entries is a real entry. -/
theorem sum_real {ι : Type} [Fintype ι] (f : ι → EReal) (hf : ∀ i, ∃ r : ℝ, f i = r) : ∃ r : ℝ, (∑ i, f i) = r := by
  choose f' hf' using hf
  exact ⟨∑ i, f' i, by simp only [hf', ← Cert.GraphLayer.coe_sum]⟩

end Cert.GraphSums

end
-- ==== Proof.Spec.lean ====
/-
  The layer both programs compute, as one function of the argument arrays, entry by entry, in the two orders of
  multiplication, and the theorem that the two orders agree for real features and weights.

  A graph of 100000 nodes with 640000 directed edges src e → dst e (two integer rows) and node features h (128 per
  node). A node's degree counts the edges that point at it, plus one for its own loop; its weight `dis` is the inverse
  square root of the degree. An edge's weight is dis (source) · dis (target), the source and target read the way an array
  index is read: a negative number wrapped once by the node count, then clamped into range, while an edge whose TARGET
  number is out of range contributes to no node at all. The convolution of node n is
      Σ_{e → n} weight e · h (source e)  +  dis n · dis n · h n,
  projected by the weight matrix W, plus the bias b. The kernel aggregates the 128 features first and multiplies the
  sum by W; the reference multiplies every node's features by W first (x = h · W) and aggregates, the node's own loop
  entering as one more edge of weight dis n · 1 · dis n. Then both apply, row by row, the same leaky rectifier (slope a)
  and the same normalisation over the 128 outputs with scale g and shift bt (`lnRow`).
-/
import Idealize.ShloMosaic.Lib.ValueIdx
import Idealize.ShloMosaic.Lib.IdealHost
import Idealize.ShloMosaic.PureOps.Ideal.Laws
import proofs.«122576_j79422535238247_2_alg».proof.Proof.GraphSums

noncomputable section

open scoped BigOperators

namespace Cert.GcnSpec

open Idealize.ShloMosaic Idealize.ShloMosaic.ValueIdx

abbrev SNC : Shape := ⟨2, ![100000, 128]⟩
abbrev SE : Shape := ⟨1, ![640000]⟩
abbrev SCC : Shape := ⟨2, ![128, 128]⟩
abbrev SC : Shape := ⟨1, ![128]⟩
abbrev SOne : Shape := ⟨1, ![1]⟩

/-- The float words the programs spell: 0.0, 1.0, 128.0, the normalisation's ε, and the reference's degree floor. -/
abbrev zeroV : EReal := Ideal.ofBits .f32 0x00000000#32
abbrev oneV : EReal := Ideal.ofBits .f32 0x3F800000#32
abbrev widthV : EReal := Ideal.ofBits .f32 0x43000000#32
abbrev epsV : EReal := Ideal.ofBits .f32 0x3727C5AC#32
abbrev tinyV : EReal := Ideal.ofBits .f32 0x2B8CBCCC#32

/-! ## The row-wise tail: leaky rectifier, then normalisation over the 128 outputs -/

/-- The leaky rectifier with slope `a`. -/
def act (a y : EReal) : EReal := Scalar.select (FloatOps.cmpf (F := Ideal) (φ := .f32) .oge y zeroV) y (a * y)

/-- The mean of the rectified row. -/
def rowMean (a : EReal) (y : Fin 128 → EReal) : EReal := Ideal.div (∑ j : Fin 128, act a (y j)) widthV

/-- The rectified row, centred. -/
def centred (a : EReal) (y : Fin 128 → EReal) (c : Fin 128) : EReal := act a (y c) - rowMean a y

/-- The variance of the rectified row. -/
def rowVar (a : EReal) (y : Fin 128 → EReal) : EReal :=
  Ideal.div (∑ j : Fin 128, centred a y j * centred a y j) widthV

/-- One entry of the normalised row, scaled and shifted. -/
def lnRow (a : EReal) (g bt y : Fin 128 → EReal) (c : Fin 128) : EReal :=
  (centred a y c * Ideal.rsqrt (rowVar a y + epsV)) * g c + bt c

/-! ## The graph's weights -/

/-- A node number as an index reads it: negative numbers wrapped once by the node count. -/
def wrapNode (v : BitVec 32) : BitVec 32 := if v.slt 0#32 then v + 100000#32 else v

/-- The row a gather reads for the (wrapped) number `v`: read signed, clamped into range. -/
def rowOf (v : BitVec 32) : Fin 100000 := ⟨min v.toInt.toNat (100000 - 1), by omega⟩

/-- The node an edge end names. -/
def nodeOf (v : BitVec 32) : Fin 100000 := rowOf (wrapNode v)

/-- The degree of node `n`: the edges whose target number is `n`, and its own loop. -/
def deg (dst : IVec SE 32) (n : Fin 100000) : EReal :=
  (zeroV + ∑ e : Fin 640000, if (dst (ix1 e)).toInt = (n.val : Int) then oneV else 0) + oneV

/-- The node's weight. -/
def dis (dst : IVec SE 32) (n : Fin 100000) : EReal := Ideal.rsqrt (deg dst n)

/-! ## The convolution, aggregated first (the kernel's order) -/

/-- The weighted sum of the source rows over the edges that point at `n`. -/
def agg (h : SNC.Idx → EReal) (src dst : IVec SE 32) (n : Fin 100000) (k : Fin 128) : EReal :=
  zeroV + ∑ e : Fin 640000, if (dst (ix1 e)).toInt = (n.val : Int)
    then (dis dst (nodeOf (src (ix1 e))) * dis dst (nodeOf (dst (ix1 e)))) * h (ix2 (nodeOf (src (ix1 e))) k) else 0

/-- … projected, with the node's own loop folded in before the projection, plus the bias. -/
def preK (h : SNC.Idx → EReal) (src dst : IVec SE 32) (W : SCC.Idx → EReal) (b : SC.Idx → EReal) (n : Fin 100000)
    (j : Fin 128) : EReal :=
  (∑ k : Fin 128, (agg h src dst n k + (dis dst n * dis dst n) * h (ix2 n k)) * W (ix2 k j)) + b (ix1 j)

/-- The kernel's result at (n, c). -/
def G (h : SNC.Idx → EReal) (src dst : IVec SE 32) (W : SCC.Idx → EReal) (b : SC.Idx → EReal) (a : SOne.Idx → EReal)
    (g bt : SC.Idx → EReal) (n : Fin 100000) (c : Fin 128) : EReal :=
  lnRow (a (ix1 (0 : Fin 1))) (fun j => g (ix1 j)) (fun j => bt (ix1 j)) (fun j => preK h src dst W b n j) c

/-! ## The convolution, projected first (the reference's order) -/

/-- The projected features x = h · W. -/
def proj (h : SNC.Idx → EReal) (W : SCC.Idx → EReal) (n : Fin 100000) (j : Fin 128) : EReal :=
  ∑ k : Fin 128, h (ix2 n k) * W (ix2 k j)

/-- The reference's aggregation over the 640000 edges and then the 100000 loops, plus the bias. -/
def preR (h : SNC.Idx → EReal) (src dst : IVec SE 32) (W : SCC.Idx → EReal) (b : SC.Idx → EReal) (n : Fin 100000)
    (j : Fin 128) : EReal :=
  (zeroV + ((∑ e : Fin 640000, if (dst (ix1 e)).toInt = (n.val : Int)
      then ((dis dst (nodeOf (src (ix1 e))) * oneV) * dis dst (nodeOf (dst (ix1 e)))) * proj h W (nodeOf (src (ix1 e))) j else 0)
    + ∑ i : Fin 100000, if (i.val : Int) = (n.val : Int) then ((dis dst i * oneV) * dis dst i) * proj h W i j else 0))
    + b (ix1 j)

/-- The reference's result at (n, c). -/
def GR (h : SNC.Idx → EReal) (src dst : IVec SE 32) (W : SCC.Idx → EReal) (b : SC.Idx → EReal) (a : SOne.Idx → EReal)
    (g bt : SC.Idx → EReal) (n : Fin 100000) (c : Fin 128) : EReal :=
  lnRow (a (ix1 (0 : Fin 1))) (fun j => g (ix1 j)) (fun j => bt (ix1 j)) (fun j => preR h src dst W b n j) c

/-! ## Degrees are real and at least one, so the weights are real -/

theorem zeroV_eq : zeroV = 0 := Ideal.ofBits_zero_f32
theorem oneV_eq : oneV = 1 := Ideal.ofBits_one_f32

/-- The degree is a real number that is at least one. -/
theorem deg_real (dst : IVec SE 32) (n : Fin 100000) : ∃ r : ℝ, 1 ≤ r ∧ deg dst n = r := by
  refine ⟨(∑ e : Fin 640000, if (dst (ix1 e)).toInt = (n.val : Int) then (1 : ℝ) else 0) + 1, ?_, ?_⟩
  · have : (0 : ℝ) ≤ ∑ e : Fin 640000, if (dst (ix1 e)).toInt = (n.val : Int) then (1 : ℝ) else 0 :=
      Finset.sum_nonneg fun e _ => by split <;> norm_num
    linarith
  · unfold deg
    rw [zeroV_eq, oneV_eq, zero_add]
    have hs : (∑ e : Fin 640000, if (dst (ix1 e)).toInt = (n.val : Int) then (1 : EReal) else 0)
        = ((∑ e : Fin 640000, if (dst (ix1 e)).toInt = (n.val : Int) then (1 : ℝ) else 0 : ℝ) : EReal) := by
      rw [Cert.GraphLayer.coe_sum]
      refine Finset.sum_congr rfl fun e _ => ?_
      split
      · exact EReal.coe_one.symm
      · exact EReal.coe_zero.symm
    rw [hs, EReal.coe_add, EReal.coe_one]

/-- The inverse square root of a real that is at least one is a real. -/
theorem rsqrt_real {r : ℝ} (hr : 1 ≤ r) : ∃ s : ℝ, Ideal.rsqrt (r : EReal) = s := by
  refine ⟨(Real.sqrt r)⁻¹, ?_⟩
  rw [Ideal.rsqrt_coe, if_neg (by linarith), if_neg (by linarith)]

/-- A node's weight is a real. -/
theorem dis_real (dst : IVec SE 32) (n : Fin 100000) : ∃ s : ℝ, dis dst n = s := by
  obtain ⟨r, hr, e⟩ := deg_real dst n
  unfold dis
  rw [e]
  exact rsqrt_real hr

/-! ## The two orders agree for real features and weights -/

/-- The loops' sum has one term: the node's own. -/
theorem loops_sum (f : Fin 100000 → EReal) (n : Fin 100000) :
    (∑ i : Fin 100000, if (i.val : Int) = (n.val : Int) then f i else 0) = f n := by
  have : ∀ i : Fin 100000, ((i.val : Int) = (n.val : Int)) ↔ i = n := fun i =>
    ⟨fun hh => Fin.ext (by exact_mod_cast hh), fun hh => by rw [hh]⟩
  simp only [this]
  rw [Finset.sum_ite_eq' Finset.univ n f]
  simp

/-- Aggregate-then-project is project-then-aggregate, entry by entry, for real features and weights. -/
theorem preK_eq_preR (h : SNC.Idx → EReal) (src dst : IVec SE 32) (W : SCC.Idx → EReal) (b : SC.Idx → EReal)
    (hh : ∀ i, ∃ r : ℝ, h i = r) (hW : ∀ i, ∃ r : ℝ, W i = r) (n : Fin 100000) (j : Fin 128) :
    preK h src dst W b n j = preR h src dst W b n j := by
  unfold preK preR
  refine congrArg (· + b (ix1 j)) ?_
  rw [loops_sum (fun i => ((dis dst i * oneV) * dis dst i) * proj h W i j) n, zeroV_eq, zero_add, oneV_eq]
  have key := Cert.GraphSums.ereal_orders (E := Fin 640000) (K := Fin 128)
    (fun e => (dst (ix1 e)).toInt = (n.val : Int))
    (fun e => dis dst (nodeOf (src (ix1 e))) * dis dst (nodeOf (dst (ix1 e))))
    (fun e k => h (ix2 (nodeOf (src (ix1 e))) k)) (fun k => h (ix2 n k)) (fun k => W (ix2 k j)) (dis dst n)
    (fun e => by
      obtain ⟨s1, e1⟩ := dis_real dst (nodeOf (src (ix1 e)))
      obtain ⟨s2, e2⟩ := dis_real dst (nodeOf (dst (ix1 e)))
      exact ⟨s1 * s2, by rw [e1, e2, EReal.coe_mul]⟩)
    (fun e k => hh _) (fun k => hh _) (fun k => hW _) (dis_real dst n)
  simp only [agg, zeroV_eq, zero_add, proj, mul_one] at key ⊢
  exact key

/-- So the two programs' results agree entry by entry. -/
theorem G_eq_GR (h : SNC.Idx → EReal) (src dst : IVec SE 32) (W : SCC.Idx → EReal) (b : SC.Idx → EReal)
    (a : SOne.Idx → EReal) (g bt : SC.Idx → EReal) (hh : ∀ i, ∃ r : ℝ, h i = r) (hW : ∀ i, ∃ r : ℝ, W i = r)
    (n : Fin 100000) (c : Fin 128) : G h src dst W b a g bt n c = GR h src dst W b a g bt n c := by
  unfold G GR
  exact congrArg (fun y => lnRow (a (ix1 (0 : Fin 1))) (fun j => g (ix1 j)) (fun j => bt (ix1 j)) y c)
    (funext fun j => preK_eq_preR h src dst W b hh hW n j)

end Cert.GcnSpec

end
-- ==== Proof.KernelBody.lean ====
/-
  What the kernel's body leaves in one block, entry by entry.

  A block is 4000 consecutive nodes. From the block of aggregated rows P1, the block of the nodes' own rows P2, the
  block of their weights P0 (one column), the weight matrix P3, the bias P4, the slope P5, the scale P6 and the shift
  P7, the body computes for node p of the block and output c: the aggregated row with the node's own loop folded in,
  P1 (p, k) + (P0 p · P0 p) · P2 (p, k); its product with the weight matrix plus the bias; and then the row-wise tail
  (`Cert.GcnSpec.lnRow`). Each stage below is one array of the body, read at an index.
-/
import proofs.«122576_j79422535238247_2_alg».proof.Proof.Gen.KernelIdeal.Value
import proofs.«122576_j79422535238247_2_alg».proof.Proof.LibColumns
import proofs.«122576_j79422535238247_2_alg».proof.Proof.LibPlainDot
import proofs.«122576_j79422535238247_2_alg».proof.Proof.Spec
import Idealize.ShloMosaic.Lib.ValueLayout

noncomputable section

open scoped BigOperators

namespace Cert.KernelIdeal.Body

open Cert.KernelIdeal Cert.KernelIdeal.Gen Idealize.ShloMosaic Idealize.ShloMosaic.ValueIdx Cert.GcnSpec

variable (P0 : Vec Ideal S4000x1 .f32) (P1 P2 : Vec Ideal S4000x128 .f32) (P3 : Vec Ideal S128x128 .f32)
  (P4 : Vec Ideal S128 .f32) (P5 : Vec Ideal S1 .f32)

/-! ## The stages, as the body spells them -/

/-- The aggregated rows with each node's own loop folded in. -/
def comb : FVec Ideal S4000x128 .f32 :=
  addf (shapeCast S4000x128 P1 shapeCasts_S4000x128_S4000x128)
    (mulf (broadcastTo S4000x128 (mulf (shapeCast S4000x1 P0 shapeCasts_S4000x1_S4000x1)
      (shapeCast S4000x1 P0 shapeCasts_S4000x1_S4000x1)) broadcasts_S4000x1_S4000x128) P2)

/-- … projected by the weight matrix, plus the bias. -/
def pre : FVec Ideal S4000x128 .f32 :=
  addf (matmul dot_S4000x128_S128x128_S4000x128_1_0_0_1_n_n none (truncf .bf16 (comb P0 P1 P2) bitsLt_bf16_f32)
      (truncf .bf16 P3 bitsLt_bf16_f32) (constant S4000x128 .f32 0x00000000#32))
    (broadcastTo S4000x128 (shapeCast S1x128 P4 shapeCasts_S128_S1x128) broadcasts_S1x128_S4000x128)

/-- … through the leaky rectifier. -/
def rect : FVec Ideal S4000x128 .f32 :=
  select (cmpf .oge (pre P0 P1 P2 P3 P4) (broadcast S4000x128 (Scalar.ofBits .f32 0x00000000#32))) (pre P0 P1 P2 P3 P4)
    (mulf (broadcast S4000x128 (extractAt ![0] P5 inpos_S1_p0)) (pre P0 P1 P2 P3 P4))

/-- The rows' means, as a column. -/
def mean : FVec Ideal S4000x1 .f32 :=
  divf (shapeCast S4000x1 (multiReduction .add [1] S4000 (rect P0 P1 P2 P3 P4 P5) 0x00000000#32 reduces_S4000x128_S4000
      (.inl rfl) rfl) shapeCasts_S4000_S4000x1) (broadcast S4000x1 (Scalar.ofBits .f32 0x43000000#32))

/-- The rows, centred. -/
def diff : FVec Ideal S4000x128 .f32 :=
  subf (rect P0 P1 P2 P3 P4 P5) (broadcastTo S4000x128 (mean P0 P1 P2 P3 P4 P5) broadcasts_S4000x1_S4000x128)

/-- The rows' variances, as a column. -/
def var : FVec Ideal S4000x1 .f32 :=
  divf (shapeCast S4000x1 (multiReduction .add [1] S4000 (mulf (diff P0 P1 P2 P3 P4 P5) (diff P0 P1 P2 P3 P4 P5))
      0x00000000#32 reduces_S4000x128_S4000 (.inl rfl) rfl) shapeCasts_S4000_S4000x1)
    (broadcast S4000x1 (Scalar.ofBits .f32 0x43000000#32))

/-- The body's normalised rows are these stages composed. -/
theorem pay2_eq : k0_pay2 P0 P1 P2 P3 P4 P5
    = mulf (diff P0 P1 P2 P3 P4 P5) (broadcastTo S4000x128 (rsqrt (addf (var P0 P1 P2 P3 P4 P5)
        (broadcast S4000x1 (Scalar.ofBits .f32 0x3727C5AC#32)))) broadcasts_S4000x1_S4000x128) := rfl

/-! ## Each stage at an index -/

/-- The row the tail is applied to: node p's projected aggregate plus the bias, as a function of the output. -/
def rowOfBlock (p : Fin 4000) (j : Fin 128) : EReal :=
  (∑ k : Fin 128, (P1 (ix2 p k) + (P0 (ix2 p (0 : Fin 1)) * P0 (ix2 p (0 : Fin 1))) * P2 (ix2 p k)) * P3 (ix2 k j))
    + P4 (ix1 j)

theorem comb_apply (p : Fin 4000) (k : Fin 128) :
    comb P0 P1 P2 (ix2 p k) = P1 (ix2 p k) + (P0 (ix2 p (0 : Fin 1)) * P0 (ix2 p (0 : Fin 1))) * P2 (ix2 p k) := by
  unfold comb
  rw [shapeCast_self, shapeCast_self]
  refine congrArg₂ (· + ·) rfl (congrArg₂ (· * ·) ?_ rfl)
  exact Cert.LibColumns.broadcastTo_a1_ab_apply _ _ p k

/-- The kernel's product record contracts the columns of the first factor against the rows of the second. -/
theorem dot_l0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem dot_l1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem dot_r0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem dot_r1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

theorem bias_apply (p : Fin 4000) (j : Fin 128) :
    broadcastTo S4000x128 (shapeCast S1x128 P4 shapeCasts_S128_S1x128) broadcasts_S1x128_S4000x128 (ix2 p j) = P4 (ix1 j) := by
  rw [broadcastTo_1b_ab_apply, shapeCast_a_1a_apply]

theorem pre_apply (p : Fin 4000) (j : Fin 128) : pre P0 P1 P2 P3 P4 (ix2 p j) = rowOfBlock P0 P1 P2 P3 P4 p j := by
  unfold pre rowOfBlock
  refine congrArg₂ (· + ·) ?_ (bias_apply P4 p j)
  refine (Cert.PlainDot.matmul_zero_apply dot_S4000x128_S128x128_S4000x128_1_0_0_1_n_n rfl rfl dot_l0 dot_l1 dot_r0 dot_r1
    none (truncf .bf16 (comb P0 P1 P2) bitsLt_bf16_f32) (truncf .bf16 P3 bitsLt_bf16_f32) p j).trans ?_
  refine Finset.sum_congr rfl fun k _ => ?_
  show comb P0 P1 P2 (ix2 p k) * P3 (ix2 k j) = _
  rw [comb_apply]

/-- The slope the body extracts is the slope array's one entry. -/
theorem slope_eq : extractAt ![0] P5 inpos_S1_p0 = P5 (ix1 (0 : Fin 1)) := by
  unfold extractAt
  exact congrArg P5 (funext fun a => Fin.ext (by match a with | ⟨0, _⟩ => rfl))

theorem rect_apply (p : Fin 4000) (j : Fin 128) :
    rect P0 P1 P2 P3 P4 P5 (ix2 p j) = act (P5 (ix1 (0 : Fin 1))) (rowOfBlock P0 P1 P2 P3 P4 p j) := by
  unfold rect act
  show Scalar.select (FloatOps.cmpf .oge (pre P0 P1 P2 P3 P4 (ix2 p j)) zeroV) (pre P0 P1 P2 P3 P4 (ix2 p j))
    (extractAt ![0] P5 inpos_S1_p0 * pre P0 P1 P2 P3 P4 (ix2 p j)) = _
  rw [pre_apply, slope_eq]

theorem mean_apply (p : Fin 4000) (z : Fin 1) :
    mean P0 P1 P2 P3 P4 P5 (ix2 p z) = rowMean (P5 (ix1 (0 : Fin 1))) (rowOfBlock P0 P1 P2 P3 P4 p) := by
  unfold mean rowMean
  show Ideal.div (shapeCast S4000x1 _ shapeCasts_S4000_S4000x1 (ix2 p z)) widthV = _
  rw [Cert.LibColumns.shapeCast_a_a1_apply]
  refine congrArg (Ideal.div · widthV) ((Cert.LibColumns.rowSum_apply (n := 4000) (m := 128) _ _ _ _ _ p).trans
    (Finset.sum_congr rfl fun j _ => ?_))
  exact rect_apply P0 P1 P2 P3 P4 P5 p j

theorem diff_apply (p : Fin 4000) (c : Fin 128) :
    diff P0 P1 P2 P3 P4 P5 (ix2 p c) = centred (P5 (ix1 (0 : Fin 1))) (rowOfBlock P0 P1 P2 P3 P4 p) c := by
  unfold diff centred
  show rect P0 P1 P2 P3 P4 P5 (ix2 p c)
    - broadcastTo S4000x128 (mean P0 P1 P2 P3 P4 P5) broadcasts_S4000x1_S4000x128 (ix2 p c) = _
  rw [Cert.LibColumns.broadcastTo_a1_ab_apply, mean_apply, rect_apply]

theorem var_apply (p : Fin 4000) (z : Fin 1) :
    var P0 P1 P2 P3 P4 P5 (ix2 p z) = rowVar (P5 (ix1 (0 : Fin 1))) (rowOfBlock P0 P1 P2 P3 P4 p) := by
  unfold var rowVar
  show Ideal.div (shapeCast S4000x1 _ shapeCasts_S4000_S4000x1 (ix2 p z)) widthV = _
  rw [Cert.LibColumns.shapeCast_a_a1_apply]
  refine congrArg (Ideal.div · widthV) ((Cert.LibColumns.rowSum_apply (n := 4000) (m := 128) _ _ _ _ _ p).trans
    (Finset.sum_congr rfl fun j _ => ?_))
  show diff P0 P1 P2 P3 P4 P5 (ix2 p j) * diff P0 P1 P2 P3 P4 P5 (ix2 p j) = _
  rw [diff_apply]

/-- THE BODY'S NORMALISED ROWS at (p, c). -/
theorem pay2_apply (p : Fin 4000) (c : Fin 128) :
    k0_pay2 P0 P1 P2 P3 P4 P5 (ix2 p c)
      = centred (P5 (ix1 (0 : Fin 1))) (rowOfBlock P0 P1 P2 P3 P4 p) c
        * Ideal.rsqrt (rowVar (P5 (ix1 (0 : Fin 1))) (rowOfBlock P0 P1 P2 P3 P4 p) + epsV) := by
  rw [pay2_eq]
  show diff P0 P1 P2 P3 P4 P5 (ix2 p c) * broadcastTo S4000x128 (rsqrt (addf (var P0 P1 P2 P3 P4 P5)
    (broadcast S4000x1 (Scalar.ofBits .f32 0x3727C5AC#32)))) broadcasts_S4000x1_S4000x128 (ix2 p c) = _
  rw [Cert.LibColumns.broadcastTo_a1_ab_apply, diff_apply]
  show _ * Ideal.rsqrt (var P0 P1 P2 P3 P4 P5 (ix2 p (0 : Fin 1)) + epsV) = _
  rw [var_apply]

/-- THE BLOCK THE BODY LEAVES at (p, c): the layer's tail on node p's row. -/
theorem block_apply (P6 P7 : Vec Ideal S128 .f32) (p : Fin 4000) (c : Fin 128) :
    Cert.KernelIdeal.Value.E8 P0 P1 P2 P3 P4 P5 P6 P7 (ix2 p c)
      = lnRow (P5 (ix1 (0 : Fin 1))) (fun j => P6 (ix1 j)) (fun j => P7 (ix1 j)) (rowOfBlock P0 P1 P2 P3 P4 p) c := by
  unfold lnRow
  show (k0_pay2 P0 P1 P2 P3 P4 P5 (Cert.KernelIdeal.Value.ix8_0 (ix2 p c))) * P6 (Cert.KernelIdeal.Value.ix8_1 (ix2 p c))
    + P7 (Cert.KernelIdeal.Value.ix8_2 (ix2 p c)) = _
  have e0 : Cert.KernelIdeal.Value.ix8_0 (ix2 p c) = ix2 p c := funext fun a => Fin.ext (by
    match a with | ⟨0, _⟩ => rfl | ⟨1, _⟩ => rfl)
  have e1 : Cert.KernelIdeal.Value.ix8_1 (ix2 p c) = ix1 c := funext fun a => Fin.ext (by
    match a with | ⟨0, _⟩ => rfl)
  have e2 : Cert.KernelIdeal.Value.ix8_2 (ix2 p c) = ix1 c := funext fun a => Fin.ext (by
    match a with | ⟨0, _⟩ => rfl)
  rw [e0, e1, e2, pay2_apply]

end Cert.KernelIdeal.Body

end
-- ==== Proof.LibScatterRows.lean ====
/-
  A reusable general lemma: the host's accumulating scatter of WHOLE ROWS into a rank-2 operand, read at an index,
  on the extended reals.

  What `segment_sum(u, idx, N)` (or `x.at[idx].add(u)`) of update rows `u : [E, C]` at an integer array `idx : [E]`
  lowers to: a scatter with an `add` body, update_window_dims `[1]`, inserted_window_dims `[0]`,
  scatter_dims_to_operand_dims `[0]` and index_vector_dim 1 over the indices as a column `[E, 1]`. Update entry
  `(e, c)` lands on operand entry `(idx[e, 0], c)`: the row is the index read as a SIGNED integer and NOT clamped, so
  an update whose row is negative or at least `N` lands nowhere and is dropped; the column is the update's own. On the
  extended reals the result at `(n, c)` is therefore the operand's entry plus the sum, over the update rows `e` whose
  index is `n`, of `u (e, c)`. Stated at any extents `N`, `E`, `C` and any index width.
-/
import Idealize.ShloMosaic.Lib.ValueIdx
import Idealize.ShloMosaic.PureOps.Ideal

noncomputable section

open scoped BigOperators

namespace Idealize.ShloMosaic.ScatterRows

open Idealize.ShloMosaic Idealize.ShloMosaic.ValueIdx

/-- The row scatter's dimension numbers for an operand `[N, C]`, scatter indices `[E, 1]` and updates `[E, C]`; their
    conditions `wf` are decided on a program's literal shapes. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `(e, c)` starts at the index `idx[e, 0]`, read signed. -/
theorem start_row (idx : IVec ⟨2, ![E, 1]⟩ w) (e : Fin E) (c : Fin C) :
    (rowDims N E C wf).start (ix2 e c) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e c) ⟨List.idxOf (0 : Fin 2) (rowDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The column axis is not named by the index map: the window starts at `0` there. -/
theorem start_col (idx : IVec ⟨2, ![E, 1]⟩ w) (e : Fin E) (c : Fin C) :
    (rowDims N E C wf).start (ix2 e c) idx 1 = 0 := by
  unfold ScatterDims.start
  rw [dif_neg (show (1 : Fin 2) ∉ (rowDims N E C wf).scatterDimsToOperandDims from (by decide : (1 : Fin 2) ∉ [(0 : Fin 2)]))]

/-- The row axis is an inserted one: the window coordinate is `0` there. -/
theorem window_row (e : Fin E) (c : Fin C) : (rowDims N E C wf).window (ix2 e c) 0 = 0 := by
  unfold ScatterDims.window
  rw [dif_neg (show (0 : Fin 2) ∉ (rowDims N E C wf).sKept from
    (by decide : (0 : Fin 2) ∉ (List.finRange 2).filter (· ∉ [(0 : Fin 2)])))]

/-- On the column axis the window coordinate is the update's own column. -/
theorem window_col (e : Fin E) (c : Fin C) : (rowDims N E C wf).window (ix2 e c) 1 = c.val := by
  unfold ScatterDims.window
  rw [dif_pos (show (1 : Fin 2) ∈ (rowDims N E C wf).sKept from
    (by decide : (1 : Fin 2) ∈ (List.finRange 2).filter (· ∉ [(0 : Fin 2)])))]
  rfl

/-- Update `(e, c')` lands on `(n, c)` exactly when its index, read signed, is `n` and its column is `c`. -/
theorem resultIdx?_eq_some_iff (idx : IVec ⟨2, ![E, 1]⟩ w) (e : Fin E) (c' c : Fin C) (n : Fin N) :
    (rowDims N E C wf).resultIdx? (ix2 e c') idx = some (ix2 n c)
      ↔ ((idx (ix2 e (0 : Fin 1))).toInt = (n.val : Int) ∧ c' = c) := by
  have hn := n.isLt
  have hc' := c'.isLt
  unfold ScatterDims.resultIdx?
  by_cases h : ∀ a, 0 ≤ (rowDims N E C wf).start (ix2 e c') idx a + (rowDims N E C wf).window (ix2 e c') a
      ∧ (rowDims N E C wf).start (ix2 e c') idx a + (rowDims N E C wf).window (ix2 e c') a
        < ((⟨2, ![N, C]⟩ : Shape).size a : Int)
  · rw [dif_pos h, Option.some.injEq]
    have h0 := h 0
    rw [start_row, window_row] at h0
    constructor
    · intro heq
      have e0 := congrArg Fin.val (congrFun heq 0)
      have e1 := congrArg Fin.val (congrFun heq 1)
      change ((rowDims N E C wf).start (ix2 e c') idx 0 + ((rowDims N E C wf).window (ix2 e c') 0 : Nat)).toNat = n.val at e0
      change ((rowDims N E C wf).start (ix2 e c') idx 1 + ((rowDims N E C wf).window (ix2 e c') 1 : Nat)).toNat = c.val at e1
      rw [start_row, window_row] at e0
      rw [start_col, window_col] at e1
      refine ⟨by omega, Fin.ext (by omega)⟩
    · rintro ⟨ht, rfl⟩
      funext a
      refine Fin.ext ?_
      match a with
      | ⟨0, _⟩ =>
        show ((rowDims N E C wf).start (ix2 e c') idx 0 + ((rowDims N E C wf).window (ix2 e c') 0 : Nat)).toNat = n.val
        rw [start_row, window_row]; omega
      | ⟨1, _⟩ =>
        show ((rowDims N E C wf).start (ix2 e c') idx 1 + ((rowDims N E C wf).window (ix2 e c') 1 : Nat)).toNat = c'.val
        rw [start_col, window_col]; omega
  · rw [dif_neg h]
    refine ⟨fun hh => absurd hh (by simp), ?_⟩
    rintro ⟨ht, rfl⟩
    refine absurd (fun a => ?_) h
    match a with
    | ⟨0, _⟩ =>
      show 0 ≤ (rowDims N E C wf).start (ix2 e c') idx 0 + ((rowDims N E C wf).window (ix2 e c') 0 : Nat)
        ∧ (rowDims N E C wf).start (ix2 e c') idx 0 + ((rowDims N E C wf).window (ix2 e c') 0 : Nat) < (N : Int)
      rw [start_row, window_row]; omega
    | ⟨1, _⟩ =>
      show 0 ≤ (rowDims N E C wf).start (ix2 e c') idx 1 + ((rowDims N E C wf).window (ix2 e c') 1 : Nat)
        ∧ (rowDims N E C wf).start (ix2 e c') idx 1 + ((rowDims N E C wf).window (ix2 e c') 1 : Nat) < (C : Int)
      rw [start_col, window_col]; omega

/-- THE ROW SCATTER-ADD READ AT `(n, c)`, on the extended reals: the operand's entry plus the sum, over the update rows
    whose index (read signed) is `n`, of the update's entry in column `c`. -/
theorem scatterAdd_rows_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  rw [Finset.sum_filter, sum_idx2]
  refine Finset.sum_congr rfl fun e _ => ?_
  simp only [resultIdx?_eq_some_iff]
  by_cases ht : (idx (ix2 e (0 : Fin 1))).toInt = (n.val : Int)
  · simp only [ht, true_and, if_true]
    rw [Finset.sum_ite_eq' Finset.univ c (fun c' => upd (ix2 e c'))]
    simp
  · simp only [ht, false_and, if_false, Finset.sum_const_zero]

/-- The same for the host operation as a program spells it, at any record of these dimension numbers that is the row
    record (`hd`, by `rfl` on a program's literal record). -/
theorem host_scatterAdd_rows_apply {φ : FTy} (d : ScatterDims ⟨2, ![N, C]⟩ ⟨2, ![E, 1]⟩ ⟨2, ![E, C]⟩)
    (hd : d = rowDims N E C wf) (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ e : Fin E, if (idx (ix2 e (0 : Fin 1))).toInt = (n.val : Int) then upd (ix2 e c) else 0 := by
  subst hd
  exact scatterAdd_rows_apply wf x idx upd n c

end Idealize.ShloMosaic.ScatterRows

end
-- ==== Proof.LibGatherRows.lean ====
/-
  A reusable general lemma: `stablehlo.gather` of WHOLE ROWS of a rank-2 operand, read at an index.

  What `x[idx]` of a table `x : [N, C]` at an integer array `idx : [R]` lowers to: a gather with offset_dims `[1]`,
  collapsed_slice_dims `[0]`, start_index_map `[0]`, index_vector_dim 1 and slice sizes `[1, C]` over the indices as a
  column `[R, 1]`. Result element `(r, c)` is `x` at row `idx[r, 0]` — read as a signed integer and clamped into
  `[0, N − 1]`, as the operation clamps every start index so that the slice fits — and column `c`: on the collapsed
  axis the operand index is the clamped start alone, on the other axis (which the start index map does not name) it is
  the result's own offset coordinate. Stated at any extents `N`, `R`, `C` and any index width.
-/
import Idealize.ShloMosaic.Lib.ValueIdx

noncomputable section

namespace Idealize.ShloMosaic.GatherRows

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N R C wf).start (ix2 r c) idx 0 + (rowDims N R C wf).batchCoord (ix2 r c) 0
        + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
        + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ [(0 : Fin 2)]))]
    simp only [Nat.add_zero, Nat.zero_add]
    rfl

end Idealize.ShloMosaic.GatherRows

end
-- ==== Proof.LibVecIndex.lean ====
/-
  Two reusable general lemmas about indexing a VECTOR (a rank-1 operand) by an integer column, each read at an index.

  The accumulating scatter. What `segment_sum(u, idx, N)` (or `x.at[idx].add(u)`) of a vector of updates `u : [E]` at an
  integer array `idx : [E]` lowers to: a scatter with an `add` body, no update window axes, inserted_window_dims `[0]`,
  scatter_dims_to_operand_dims `[0]` and index_vector_dim 1 over the indices as a column `[E, 1]`. Update entry `e`
  lands on operand entry `idx[e, 0]`: the index is read as a SIGNED integer and NOT clamped, so an update whose index is
  negative or at least `N` lands nowhere and is dropped. On the extended reals the result at `n` is therefore the
  operand's entry plus the sum of the updates `u e` over the `e` whose index is `n`.

  The gather. What `x[idx]` of a vector `x : [N]` at an integer array `idx : [R]` lowers to: a gather with no offset
  axes, collapsed_slice_dims `[0]`, start_index_map `[0]`, index_vector_dim 1 and slice sizes `[1]` over the indices
  as a column `[R, 1]`. Result element `r` is `x` at `idx[r, 0]`, read as a signed integer and clamped into
  `[0, N − 1]`, as the operation clamps every start index so that the slice fits.

  Both are stated at any extents and any index width; the gather at any element type.
-/
import Idealize.ShloMosaic.Lib.ValueIdx
import Idealize.ShloMosaic.PureOps.Ideal

noncomputable section

open scoped BigOperators

namespace Idealize.ShloMosaic.ScatterVec

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The vector scatter's dimension numbers for an operand `[N]`, scatter indices `[E, 1]` and updates `[E]`; their
    conditions `wf` are decided on a program's literal shapes. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- On the operand's one axis the window of update `e` starts at the index `idx[e, 0]`, read signed. -/
theorem start_zero (idx : IVec ⟨2, ![E, 1]⟩ w) (e : Fin E) :
    (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted one: the window coordinate is `0` there. -/
theorem window_zero (e : Fin E) : (vecDims N E wf).window (ix1 e) 0 = 0 := by
  unfold ScatterDims.window
  rw [dif_neg (show (0 : Fin 1) ∉ (vecDims N E wf).sKept from
    (by decide : (0 : Fin 1) ∉ (List.finRange 1).filter (· ∉ [(0 : Fin 1)])))]

/-- Update `e` lands on `n` exactly when its index, read signed, is `n`. -/
theorem resultIdx?_eq_some_iff (idx : IVec ⟨2, ![E, 1]⟩ w) (e : Fin E) (n : Fin N) :
    (vecDims N E wf).resultIdx? (ix1 e) idx = some (ix1 n)
      ↔ (idx (ix2 e (0 : Fin 1))).toInt = (n.val : Int) := by
  have hn := n.isLt
  unfold ScatterDims.resultIdx?
  by_cases h : ∀ a, 0 ≤ (vecDims N E wf).start (ix1 e) idx a + (vecDims N E wf).window (ix1 e) a
      ∧ (vecDims N E wf).start (ix1 e) idx a + (vecDims N E wf).window (ix1 e) a
        < ((⟨1, ![N]⟩ : Shape).size a : Int)
  · rw [dif_pos h, Option.some.injEq]
    have h0 := h 0
    rw [start_zero, window_zero] at h0
    constructor
    · intro heq
      have e0 := congrArg Fin.val (congrFun heq 0)
      change ((vecDims N E wf).start (ix1 e) idx 0 + ((vecDims N E wf).window (ix1 e) 0 : Nat)).toNat = n.val at e0
      rw [start_zero, window_zero] at e0
      omega
    · intro ht
      funext a
      refine Fin.ext ?_
      match a with
      | ⟨0, _⟩ =>
        show ((vecDims N E wf).start (ix1 e) idx 0 + ((vecDims N E wf).window (ix1 e) 0 : Nat)).toNat = n.val
        rw [start_zero, window_zero]; omega
  · rw [dif_neg h]
    refine ⟨fun hh => absurd hh (by simp), ?_⟩
    intro ht
    refine absurd (fun a => ?_) h
    match a with
    | ⟨0, _⟩ =>
      show 0 ≤ (vecDims N E wf).start (ix1 e) idx 0 + ((vecDims N E wf).window (ix1 e) 0 : Nat)
        ∧ (vecDims N E wf).start (ix1 e) idx 0 + ((vecDims N E wf).window (ix1 e) 0 : Nat) < (N : Int)
      rw [start_zero, window_zero]; omega

/-- THE VECTOR SCATTER-ADD READ AT `n`, on the extended reals: the operand's entry plus the sum of the updates whose
    index (read signed) is `n`. -/
theorem scatterAdd_vec_apply (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e (0 : Fin 1))).toInt = (n.val : Int) then upd (ix1 e) else 0 := by
  unfold Ideal.hostScatterAdd
  refine congrArg (x (ix1 n) + ·) ?_
  rw [Finset.sum_filter, sum_idx1]
  refine Finset.sum_congr rfl fun e _ => ?_
  simp only [resultIdx?_eq_some_iff]

/-- The same for the host operation as a program spells it, at any record of these dimension numbers that is the
    vector record (`hd`, by `rfl` on a program's literal record). -/
theorem host_scatterAdd_vec_apply {φ : FTy} (d : ScatterDims ⟨1, ![N]⟩ ⟨2, ![E, 1]⟩ ⟨1, ![E]⟩)
    (hd : d = vecDims N E wf) (x : FVec Ideal ⟨1, ![N]⟩ φ) (idx : IVec ⟨2, ![E, 1]⟩ w)
    (upd : FVec Ideal ⟨1, ![E]⟩ φ) (n : Fin N) :
    Host.scatterAdd d x idx upd (ix1 n)
      = x (ix1 n) + ∑ e : Fin E, if (idx (ix2 e (0 : Fin 1))).toInt = (n.val : Int) then upd (ix1 e) else 0 := by
  subst hd
  exact scatterAdd_vec_apply wf x idx upd n

end Idealize.ShloMosaic.ScatterVec

namespace Idealize.ShloMosaic.GatherVec

open Idealize.ShloMosaic Idealize.ShloMosaic.ValueIdx

variable {α : Type}

/-- The vector gather's dimension numbers for an operand `[N]`, start indices `[R, 1]` and result `[R]`; their
    conditions `wf` are decided on a program's literal shapes. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `r`: the operand at the index `idx[r, 0]`, read signed and clamped into
    `[0, N − 1]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r (0 : Fin 1))).toInt.toNat (N - 1), by omega⟩) := by
  unfold Host.gather
  congr 1
  funext a
  obtain rfl : a = 0 := Subsingleton.elim _ _
  refine Fin.ext ?_
  show (vecDims N R wf).start (ix1 r) idx 0 + (vecDims N R wf).batchCoord (ix1 r) 0
      + (vecDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Idealize.ShloMosaic.GatherVec

end
-- ==== Proof.LibJoinIota.lean ====
/-
  Reusable general lemmas: a vector joined from two, a vector of positions, and an index wrapped into range, each
  read at an index.

  * Two vectors of lengths A and B laid end to end along their one axis give a vector of length A + B: entry e is
    the first vector's entry e when e < A, and the second vector's entry e − A otherwise.
  * The vector of positions 0, 1, …, N − 1 as w-bit integers: entry i is the word of i, and, read signed at 32
    bits, the number i itself as long as N ≤ 2³¹.
  * Indexing with a possibly negative integer v into an axis of extent n first replaces v by v + n when v is
    negative (as a signed word) and keeps it otherwise; stated lane by lane for arrays of any shape, the comparand
    0 and the addend n being scalars spread over the shape. A lane that is non-negative is kept.
  * A vector spread as a one-column matrix, and a one-column matrix spread over C columns, read at (e, c).
-/
import Idealize.ShloMosaic.Lib.ValueIdx
import Idealize.ShloMosaic.Lib.IdealHost
import Idealize.ShloMosaic.Lib.Pipeline.Value

noncomputable section

namespace Idealize.ShloMosaic.JoinIota

open Idealize.ShloMosaic Idealize.ShloMosaic.ValueIdx

variable {α : Type}

/-! ## Two vectors laid end to end -/

/-- TWO VECTORS JOINED, READ IN THE FIRST: entry e of the join of a (length A) and b (length B), for e < A, is
    entry e of a. The result's length is any C the join's side condition accepts (it forces C = A + B). -/
theorem concatenate_vec_apply_left {A B C : Nat}
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) (he : e.val < A) :
    concatenate ⟨1, ![C]⟩ 0 [⟨⟨1, ![A]⟩, a⟩, ⟨⟨1, ![B]⟩, b⟩] h (ix1 e) = a (ix1 ⟨e.val, he⟩) := by
  refine concatenate_pair_apply_left (0 : Fin 1) a b h (ix1 e) rfl (ix1 ⟨e.val, he⟩) ?_
  intro d
  match d with
  | ⟨0, _⟩ => rfl

/-- TWO VECTORS JOINED, READ IN THE SECOND: entry e of the join of a (length A) and b (length B), for A ≤ e, is
    entry e − A of b. -/
theorem concatenate_vec_apply_right {A B C : Nat}
    (a : (⟨1, ![A]⟩ : Shape).Idx → α) (b : (⟨1, ![B]⟩ : Shape).Idx → α)
    (h : Shape.Concatenates [(⟨1, ![A]⟩ : Shape), ⟨1, ![B]⟩] ⟨1, ![C]⟩ 0) (e : Fin C) (he : A ≤ e.val)
    (hB : e.val - A < B) :
    concatenate ⟨1, ![C]⟩ 0 [⟨⟨1, ![A]⟩, a⟩, ⟨⟨1, ![B]⟩, b⟩] h (ix1 e) = b (ix1 ⟨e.val - A, hB⟩) := by
  refine concatenate_pair_apply_right (0 : Fin 1) a b h (ix1 e) rfl rfl (ix1 ⟨e.val - A, hB⟩) ?_ ?_
  · intro d hd
    match d with
    | ⟨0, _⟩ => exact absurd rfl hd
  · show e.val - A + A = e.val
    omega

/-- The join's side condition gives the lengths' equation C = A + B. -/
theorem concatenates_vec_length {A B C : Nat}
    (h : Shape.Concatenates [(⟨1, ![A]⟩ : Shape), ⟨1, ![B]⟩] ⟨1, ![C]⟩ 0) : C = A + B := by
  have e := h.2.2
  simp only [List.map, List.sum_cons, List.sum_nil] at e
  have e' : A + (B + 0) = C := e
  omega

/-! ## The vector of positions -/

/-- THE POSITIONS READ AT i: entry i of the w-bit vector 0, 1, …, N − 1 is the word of i. -/
theorem iota_vec_apply {N w : Nat} (i : Fin N) :
    iotaInDim ⟨1, ![N]⟩ w 0 (ix1 i) = BitVec.ofNat w i.val := rfl

/-- … and, at 32 bits and N ≤ 2³¹, read signed it is the number i. -/
theorem iota_vec_toInt {N : Nat} (hN : N ≤ 2 ^ 31) (i : Fin N) :
    (iotaInDim ⟨1, ![N]⟩ 32 0 (ix1 i)).toInt = (i.val : Int) := by
  rw [iota_vec_apply, BitVec.toInt_ofNat']
  have hi := i.isLt
  apply Int.bmod_eq_of_le_mul_two <;> omega

/-! ## An index wrapped into range -/

/-- THE WRAP READ AT j: where lane j of v is negative (signed) it becomes v j + n, elsewhere it stays; 0 and n are
    scalars spread over the shape. -/
theorem wrap_index_apply {S : Shape} {w : Nat} (n : BitVec w)
    (h0 : (⟨0, ![]⟩ : Shape).BroadcastsInDim S ![]) (v : IVec S w) (j : S.Idx) :
    select (cmpi .slt v (broadcastInDim S ![] h0 (constantI ⟨0, ![]⟩ w 0#w)))
        (addi v (broadcastInDim S ![] h0 (constantI ⟨0, ![]⟩ w n))) v j
      = if (v j).slt 0#w then v j + n else v j := by
  show Scalar.select (IntOp.cmpi .slt (v j) (broadcastInDim S ![] h0 (constantI ⟨0, ![]⟩ w 0#w) j))
      (IntOp.addi (v j) (broadcastInDim S ![] h0 (constantI ⟨0, ![]⟩ w n) j)) (v j) = _
  rw [broadcastInDim_scalar_apply, broadcastInDim_scalar_apply]
  show Scalar.select (BitVec.ofBool ((v j).slt 0#w)) (v j + n) (v j) = _
  unfold Scalar.select
  cases hs : (v j).slt 0#w
  · simp
  · simp

/-- A NON-NEGATIVE LANE IS KEPT: where lane j of v is at least 0 read signed, the wrap leaves it. -/
theorem wrap_index_of_nonneg {S : Shape} {w : Nat} (n : BitVec w)
    (h0 : (⟨0, ![]⟩ : Shape).BroadcastsInDim S ![]) (v : IVec S w) (j : S.Idx) (hj : 0 ≤ (v j).toInt) :
    select (cmpi .slt v (broadcastInDim S ![] h0 (constantI ⟨0, ![]⟩ w 0#w)))
        (addi v (broadcastInDim S ![] h0 (constantI ⟨0, ![]⟩ w n))) v j = v j := by
  rw [wrap_index_apply]
  have hs : (v j).slt 0#w = false := by
    rw [BitVec.slt_eq_decide, BitVec.toInt_zero]
    exact decide_eq_false (by omega)
  rw [hs]
  rfl

/-! ## A vector as a column, a column over the columns -/

/-- A VECTOR SPREAD AS A COLUMN, READ AT (e, 0): entry e of the vector. -/
theorem broadcast_vec_column_apply {R : Nat} (h : (⟨1, ![R]⟩ : Shape).BroadcastsInDim ⟨2, ![R, 1]⟩ ![0])
    (v : (⟨1, ![R]⟩ : Shape).Idx → α) (e : Fin R) :
    broadcastInDim ⟨2, ![R, 1]⟩ ![0] h v (ix2 e (0 : Fin 1)) = v (ix1 e) := by
  refine broadcastInDim_apply _ h v _ (ix1 e) ?_
  intro d
  match d with
  | ⟨0, _⟩ =>
    show e.val = if R = 1 then 0 else e.val
    split
    · next h1 => have := e.isLt; omega
    · rfl

/-- A COLUMN SPREAD OVER C COLUMNS, READ AT (e, c): the column's entry e. -/
theorem broadcast_column_apply {R C : Nat} (h : (⟨2, ![R, 1]⟩ : Shape).BroadcastsInDim ⟨2, ![R, C]⟩ ![0, 1])
    (v : (⟨2, ![R, 1]⟩ : Shape).Idx → α) (e : Fin R) (c : Fin C) :
    broadcastInDim ⟨2, ![R, C]⟩ ![0, 1] h v (ix2 e c) = v (ix2 e (0 : Fin 1)) := by
  refine broadcastInDim_apply _ h v _ (ix2 e (0 : Fin 1)) ?_
  intro d
  match d with
  | ⟨0, _⟩ =>
    show e.val = if R = 1 then 0 else e.val
    split
    · next h1 => have := e.isLt; omega
    · rfl
  | ⟨1, _⟩ => rfl

end Idealize.ShloMosaic.JoinIota

end
-- ==== Proof.LibGatherAt.lean ====
/-
  A reusable general lemma, in two ranks: a gather read at a position whose index VALUE is known.

  A gather reads, at position r, the operand's row numbered by the index array's entry at r — read signed and clamped
  into range. When that entry is known to be the word v, the row is the clamp of v. Stating the lemma with the
  equation as a hypothesis lets a proof name the row by the word it comes from, without rewriting inside the clamp.
-/
import Idealize.ShloMosaic.Lib.ValueIdx
import proofs.«122576_j79422535238247_2_alg».proof.Proof.LibVecIndex
import proofs.«122576_j79422535238247_2_alg».proof.Proof.LibGatherRows

noncomputable section

namespace Idealize.ShloMosaic.GatherAt

open Idealize.ShloMosaic Idealize.ShloMosaic.ValueIdx

variable {α : Type}

/-- The row an index word names in an axis of extent N: read signed, clamped into [0, N − 1]. -/
def clampRow {w : Nat} (N : Nat) (hN : 0 < N) (v : BitVec w) : Fin N := ⟨min v.toInt.toNat (N - 1), by omega⟩

/-- A vector gathered at position r, the index there being the word v: the vector's entry at the clamp of v. -/
theorem gather_vec_at {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) (v : BitVec w)
    (hv : idx (ix2 r (0 : Fin 1)) = v) :
    Host.gather (GatherVec.vecDims N R wf) x idx (ix1 r) = x (ix1 (clampRow N hN v)) := by
  subst hv
  exact GatherVec.gather_vec_apply hN wf x idx r

/-- Whole rows gathered at position r, the index there being the word v: the matrix's row at the clamp of v. -/
theorem gather_rows_at {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) (v : BitVec w)
    (hv : idx (ix2 r (0 : Fin 1)) = v) :
    Host.gather (GatherRows.rowDims N R C wf) x idx (ix2 r c) = x (ix2 (clampRow N hN v) c) := by
  subst hv
  exact GatherRows.gather_rows_apply hN wf x idx r c

end Idealize.ShloMosaic.GatherAt

end
-- ==== Proof.KernelHost.lean ====
/-
  The two arrays the kernel's host operations prepare for the fused call, entry by entry.

  Before the call the host computes, from the edge list alone, every node's weight (the inverse square root of its
  degree, the node's own loop counted), and from the weights and the features the aggregate over the edges: for node n
  and feature k, the sum over the edges that point at n of weight (source) · weight (target) · h (source, k). The call
  then reads the aggregate (one block of 4000 nodes per grid point) and the weights spread as a one-column matrix.
  Here each of the two arrays is written as the host's composed term of the arguments, in named stages, and each stage is
  read at an index; the result is `Cert.GcnSpec.agg` and `Cert.GcnSpec.dis` of the edge list's two rows.
-/
import proofs.«122576_j79422535238247_2_alg».proof.Proof.Gen.KernelIdeal.Value
import proofs.«122576_j79422535238247_2_alg».proof.Proof.LibScatterRows
import proofs.«122576_j79422535238247_2_alg».proof.Proof.LibGatherRows
import proofs.«122576_j79422535238247_2_alg».proof.Proof.LibVecIndex
import proofs.«122576_j79422535238247_2_alg».proof.Proof.LibJoinIota
import proofs.«122576_j79422535238247_2_alg».proof.Proof.LibGatherAt
import proofs.«122576_j79422535238247_2_alg».proof.Proof.Spec
import Idealize.ShloMosaic.Lib.StableHlo.Run
import Idealize.ShloMosaic.Lib.IdealHost

noncomputable section

open scoped BigOperators

namespace Cert.KernelIdeal.HostSide

open Cert.KernelIdeal Cert.KernelIdeal.Gen Idealize.ShloMosaic Idealize.ShloMosaic.TcCoe Idealize.ShloMosaic.ValueIdx
open Idealize.SL.Sem Idealize.ShloMosaic.StableHlo Cert.GcnSpec

/-! ## The stages, as @main spells them -/

/-- The edges' source numbers: row 0 of the edge list. -/
def srcV (x1 : IVec S2x640000 32) : IVec S640000 32 :=
  shapeCast _ (extractStridedSlice S1x640000 ![0, 0] x1 slices_S2x640000_S1x640000_0_0) shapeCasts_S1x640000_S640000

/-- The edges' target numbers: row 1 of the edge list. -/
def dstV (x1 : IVec S2x640000 32) : IVec S640000 32 :=
  shapeCast _ (extractStridedSlice S1x640000 ![1, 0] x1 slices_S2x640000_S1x640000_1_0) shapeCasts_S1x640000_S640000

/-- Node numbers as an index reads them: the negative ones wrapped by the node count. -/
def wrapV (v : IVec S640000 32) : IVec S640000 32 :=
  select (cmpi .slt v (broadcastInDim S640000 ![] bcast_S_S640000 (constantI S_ 32 0#32)))
    (addi v (broadcastInDim S640000 ![] bcast_S_S640000 (constantI S_ 32 100000#32))) v

/-- A vector of numbers as a one-column matrix. -/
def colV {α : Type} (v : S640000.Idx → α) : S640000x1.Idx → α := broadcastInDim S640000x1 ![0] bcast_S640000_S640000x1_0 v

/-- The degrees. -/
def degV (x1 : IVec S2x640000 32) : FVec Ideal S100000 .f32 :=
  addf (Host.scatterAdd scatter_S100000_S640000x1_S640000_n_0_0_1
      (broadcastInDim S100000 ![] bcast_S_S100000 (constant (F := Ideal) S_ .f32 0x00000000#32)) (colV (dstV x1))
      (broadcastInDim S640000 ![] bcast_S_S640000 (constant (F := Ideal) S_ .f32 0x3F800000#32)))
    (broadcastInDim S100000 ![] bcast_S_S100000 (constant (F := Ideal) S_ .f32 0x3F800000#32))

/-- The nodes' weights. -/
def disV (x1 : IVec S2x640000 32) : FVec Ideal S100000 .f32 := Host.rsqrt (degV x1)

/-- The edges' weights. -/
def nrmV (x1 : IVec S2x640000 32) : FVec Ideal S640000 .f32 :=
  mulf (Host.gather gather_S100000_S640000x1_S640000_n_0_n_n_0_1_1 (disV x1) (colV (wrapV (srcV x1))))
    (Host.gather gather_S100000_S640000x1_S640000_n_0_n_n_0_1_1 (disV x1) (colV (wrapV (dstV x1))))

/-- The edges' messages: the source's features times the edge's weight. -/
def msgV (x0 : FVec Ideal S100000x128 .f32) (x1 : IVec S2x640000 32) : FVec Ideal S640000x128 .f32 :=
  mulf (broadcastInDim S640000x128 ![0, 1] bcast_S640000x1_S640000x128_0_1 (colV (nrmV x1)))
    (Host.gather gather_S100000x128_S640000x1_S640000x128_1_0_n_n_0_1_1128 x0 (colV (wrapV (srcV x1))))

/-- The aggregate over the edges. -/
def aggV (x0 : FVec Ideal S100000x128 .f32) (x1 : IVec S2x640000 32) : FVec Ideal S100000x128 .f32 :=
  Host.scatterAdd scatter_S100000x128_S640000x1_S640000x128_1_0_0_1
    (broadcastInDim S100000x128 ![] bcast_S_S100000x128 (constant (F := Ideal) S_ .f32 0x00000000#32)) (colV (dstV x1))
    (msgV x0 x1)

/-- The weights as a one-column matrix. -/
def disColV (x1 : IVec S2x640000 32) : FVec Ideal S100000x1 .f32 :=
  broadcastInDim S100000x1 ![0] bcast_S100000_S100000x1_0 (disV x1)

/-! ## The region finds these two arrays -/

variable (m : (ℓ : Loc nD τ sig) → Buf (Elt Ideal) ℓ)

set_option maxHeartbeats 4000000 in
/-- When the call starts, its first window's array holds the aggregate. -/
theorem V_main_v38 (c : Dev nD) : (V m c main_v38 : S100000x128.Idx → EReal)
    = aggV (m ((c : Thread nD τ).loc main_arg0)) (m ((c : Thread nD τ).loc main_arg1)) := by
  dsimp only [V, hostOps0]
  after_results_simp
  rfl

set_option maxHeartbeats 4000000 in
/-- … and its third window's array the weights, as a column. -/
theorem V_main_v39 (c : Dev nD) : (V m c main_v39 : S100000x1.Idx → EReal)
    = disColV (m ((c : Thread nD τ).loc main_arg1)) := by
  dsimp only [V, hostOps0]
  after_results_simp
  rfl

/-! ## Each stage at an index -/

/-- The host's inverse square root at an index, over any array. -/
theorem hostRsqrt_apply {s : Shape} (v : FVec Ideal s .f32) (i : s.Idx) : Host.rsqrt v i = Ideal.rsqrt (v i) := rfl

theorem colV_apply {α : Type} (v : S640000.Idx → α) (e : Fin 640000) : colV v (ix2 e (0 : Fin 1)) = v (ix1 e) :=
  Idealize.ShloMosaic.JoinIota.broadcast_vec_column_apply bcast_S640000_S640000x1_0 v e

theorem wrapV_apply (v : IVec S640000 32) (e : Fin 640000) : wrapV v (ix1 e) = wrapNode (v (ix1 e)) := by
  unfold wrapV wrapNode
  exact Idealize.ShloMosaic.JoinIota.wrap_index_apply 100000#32 bcast_S_S640000 v (ix1 e)

theorem degV_apply (x1 : IVec S2x640000 32) (n : Fin 100000) : degV x1 (ix1 n) = deg (dstV x1) n := by
  unfold degV deg
  rw [addf_apply,
    Idealize.ShloMosaic.ScatterVec.host_scatterAdd_vec_apply Facts₀.scatter_S100000_S640000x1_S640000_n_0_0_1_wf
      scatter_S100000_S640000x1_S640000_n_0_0_1 rfl,
    broadcastInDim_scalar_apply, broadcastInDim_scalar_apply]
  refine congrArg (· + oneV) (congrArg (zeroV + ·) (Finset.sum_congr rfl fun e _ => ?_))
  rw [colV_apply, broadcastInDim_scalar_apply]
  rfl

theorem disV_apply (x1 : IVec S2x640000 32) (n : Fin 100000) : disV x1 (ix1 n) = dis (dstV x1) n := by
  unfold disV dis
  rw [hostRsqrt_apply, degV_apply]

theorem gather_dis_apply (x1 : IVec S2x640000 32) (v : IVec S640000 32) (e : Fin 640000) :
    Host.gather gather_S100000_S640000x1_S640000_n_0_n_n_0_1_1 (disV x1) (colV (wrapV v)) (ix1 e)
      = dis (dstV x1) (nodeOf (v (ix1 e))) := by
  have hidx : colV (wrapV v) (ix2 e (0 : Fin 1)) = wrapNode (v (ix1 e)) := (colV_apply _ e).trans (wrapV_apply v e)
  refine (Idealize.ShloMosaic.GatherAt.gather_vec_at (by decide)
    Facts₀.gather_S100000_S640000x1_S640000_n_0_n_n_0_1_1_wf (disV x1) (colV (wrapV v)) e _ hidx).trans ?_
  exact disV_apply x1 _

theorem nrmV_apply (x1 : IVec S2x640000 32) (e : Fin 640000) :
    nrmV x1 (ix1 e) = dis (dstV x1) (nodeOf (srcV x1 (ix1 e))) * dis (dstV x1) (nodeOf (dstV x1 (ix1 e))) := by
  unfold nrmV
  rw [mulf_apply, gather_dis_apply, gather_dis_apply]

theorem msgV_apply (x0 : FVec Ideal S100000x128 .f32) (x1 : IVec S2x640000 32) (e : Fin 640000) (k : Fin 128) :
    msgV x0 x1 (ix2 e k) = (dis (dstV x1) (nodeOf (srcV x1 (ix1 e))) * dis (dstV x1) (nodeOf (dstV x1 (ix1 e))))
      * x0 (ix2 (nodeOf (srcV x1 (ix1 e))) k) := by
  unfold msgV
  rw [mulf_apply, Idealize.ShloMosaic.JoinIota.broadcast_column_apply, colV_apply, nrmV_apply]
  have hidx : colV (wrapV (srcV x1)) (ix2 e (0 : Fin 1)) = wrapNode (srcV x1 (ix1 e)) :=
    (colV_apply _ e).trans (wrapV_apply _ e)
  have hg : Host.gather gather_S100000x128_S640000x1_S640000x128_1_0_n_n_0_1_1128 x0 (colV (wrapV (srcV x1))) (ix2 e k)
      = x0 (ix2 (nodeOf (srcV x1 (ix1 e))) k) :=
    Idealize.ShloMosaic.GatherAt.gather_rows_at (by decide)
      Facts₀.gather_S100000x128_S640000x1_S640000x128_1_0_n_n_0_1_1128_wf x0 (colV (wrapV (srcV x1))) e k _ hidx
  rw [hg]

/-- THE AGGREGATE at (n, k). -/
theorem aggV_apply (x0 : FVec Ideal S100000x128 .f32) (x1 : IVec S2x640000 32) (n : Fin 100000) (k : Fin 128) :
    aggV x0 x1 (ix2 n k) = agg x0 (srcV x1) (dstV x1) n k := by
  unfold aggV agg
  rw [Idealize.ShloMosaic.ScatterRows.host_scatterAdd_rows_apply Facts₀.scatter_S100000x128_S640000x1_S640000x128_1_0_0_1_wf
      scatter_S100000x128_S640000x1_S640000x128_1_0_0_1 rfl,
    broadcastInDim_scalar_apply]
  refine congrArg (zeroV + ·) (Finset.sum_congr rfl fun e _ => ?_)
  rw [colV_apply, msgV_apply]

/-- THE WEIGHTS' COLUMN at (n, 0). -/
theorem disColV_apply (x1 : IVec S2x640000 32) (n : Fin 100000) (z : Fin 1) :
    disColV x1 (ix2 n z) = dis (dstV x1) n := by
  unfold disColV
  have hz : z = 0 := Subsingleton.elim _ _
  subst hz
  rw [Idealize.ShloMosaic.JoinIota.broadcast_vec_column_apply bcast_S100000_S100000x1_0 (disV x1) n]
  exact disV_apply x1 n

end Cert.KernelIdeal.HostSide

end
-- ==== Proof.KernelValue.lean ====
/-
  The kernel's result array after the run: `Cert.GcnSpec.G` of the arguments, entry by entry.

  The call runs over 25 grid points; point t reads rows 4000·t … 4000·t + 3999 of the aggregate, of the features and of
  the weights' column, the whole weight matrix, bias, slope, scale and shift, and writes the same rows of the result. So
  what point t writes back is block t of one function of the arrays (the body's block at (p, c) is the layer's tail on
  node 4000·t + p), the 25 blocks cover the result, and the result array is that function.
  Each window's block is first read off an ARBITRARY array (row p of point t's block is row 4000·t + p of the array);
  the arrays the host operations prepared enter only afterwards, by rewriting.
-/
import proofs.«122576_j79422535238247_2_alg».proof.Proof.KernelBody
import proofs.«122576_j79422535238247_2_alg».proof.Proof.KernelHost

set_option maxRecDepth 16384

noncomputable section

open scoped BigOperators

namespace Cert.KernelIdeal.Whole

open Cert.KernelIdeal Cert.KernelIdeal.Gen Idealize.ShloMosaic Idealize.ShloMosaic.TcCoe Idealize.ShloMosaic.ValueIdx
open Idealize.SL.Sem Cert.GcnSpec Cert.KernelIdeal.HostSide Cert.KernelIdeal.Body
open Idealize.ShloMosaic.Pipeline (Dat)

variable (m : (ℓ : Loc nD τ sig) → Buf (Elt Ideal) ℓ) (ρ : Dev nD → PrngReg)

/-- The result array as one function of the argument arrays. -/
def Gk (c : Dev nD) (i : S100000x128.Idx) : EReal :=
  G (m ((c : Thread nD τ).loc main_arg0)) (srcV (m ((c : Thread nD τ).loc main_arg1))) (dstV (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1)

theorem Gk_apply (c : Dev nD) (n : Fin 100000) (q : Fin 128) : Gk m c (ix2 n q)
    = G (m ((c : Thread nD τ).loc main_arg0)) (srcV (m ((c : Thread nD τ).loc main_arg1))) (dstV (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) n q := rfl

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 25 points: the row windows move with the point, the others stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_8.index t (0 : Fin 2) = t.val ∧ win0_8.index t (1 : Fin 2) = 0
    ∧ win0_3.index t (0 : Fin 2) = 0 ∧ win0_3.index t (1 : Fin 2) = 0
    ∧ win0_4.index t (0 : Fin 1) = 0 ∧ win0_5.index t (0 : Fin 1) = 0
    ∧ win0_6.index t (0 : Fin 1) = 0 ∧ win0_7.index t (0 : Fin 1) = 0 :=
  (by decide +kernel : ∀ t : Fin grid0.N, _)

/-- The node that row p of point t's blocks is. -/
def nodeAt (t : Fin cfg0.N) (p : Fin 4000) : Fin 100000 :=
  ⟨t.val * 4000 + p.val, by have ht : t.val < 25 := t.isLt; have hp := p.isLt; omega⟩

/-! ## What the body leaves, over arbitrary blocks -/

/-- The block the body leaves at (p, q), for any blocks of the right shapes. -/
theorem out8_apply (X0 X1 : Vec Ideal S4000x128 .f32) (X2 : Vec Ideal S4000x1 .f32) (X3 : Vec Ideal S128x128 .f32)
    (X4 : Vec Ideal S128 .f32) (X5 : Vec Ideal S1 .f32) (X6 X7 : Vec Ideal S128 .f32) (p : Fin 4000) (q : Fin 128) :
    out0_8 X0 X1 X2 X3 X4 X5 X6 X7 (ix2 p q)
      = lnRow (X5 (ix1 (0 : Fin 1))) (fun j => X6 (ix1 j)) (fun j => X7 (ix1 j)) (rowOfBlock X2 X0 X1 X3 X4 p) q := by
  unfold out0_8
  simp only [View.ld_unit_zero (S := S4000x128) hz2, View.ld_unit_zero (S := S4000x1) hz2,
    View.ld_unit_zero (S := S128x128) hz2, View.ld_unit_zero (S := S128) hz1, View.ld_unit_zero (S := S1) hz1]
  rw [Cert.KernelIdeal.Value.canon8_eq, block_apply]

/-! ## A window's block read off an arbitrary array -/

theorem read0 (X : S100000x128.Idx → EReal) (t : Fin cfg0.N) (p : Fin 4000) (k : Fin 128) :
    ((cfg0.win 0).blk t).view.read (Elt Ideal) X (ix2 p k) = X (ix2 (nodeAt t p) k) := by
  obtain ⟨e00, e01, -, -, -, -, -, -, -, -, -, -, -, -⟩ := idx_facts t
  show X (((cfg0.win 0).blk t).view.emb (ix2 p k)) = _
  refine congrArg X ?_
  funext a; apply Fin.ext
  match a with
  | ⟨0, _⟩ => show win0_0.index t (0 : Fin 2) * 4000 + 1 * p.val = t.val * 4000 + p.val; omega
  | ⟨1, _⟩ => show win0_0.index t (1 : Fin 2) * 128 + 1 * k.val = k.val; omega

theorem read1 (X : S100000x128.Idx → EReal) (t : Fin cfg0.N) (p : Fin 4000) (k : Fin 128) :
    ((cfg0.win 1).blk t).view.read (Elt Ideal) X (ix2 p k) = X (ix2 (nodeAt t p) k) := by
  obtain ⟨-, -, e10, e11, -, -, -, -, -, -, -, -, -, -⟩ := idx_facts t
  show X (((cfg0.win 1).blk t).view.emb (ix2 p k)) = _
  refine congrArg X ?_
  funext a; apply Fin.ext
  match a with
  | ⟨0, _⟩ => show win0_1.index t (0 : Fin 2) * 4000 + 1 * p.val = t.val * 4000 + p.val; omega
  | ⟨1, _⟩ => show win0_1.index t (1 : Fin 2) * 128 + 1 * k.val = k.val; omega

theorem read2 (X : S100000x1.Idx → EReal) (t : Fin cfg0.N) (p : Fin 4000) (z : Fin 1) :
    ((cfg0.win 2).blk t).view.read (Elt Ideal) X (ix2 p z) = X (ix2 (nodeAt t p) z) := by
  obtain ⟨-, -, -, -, e20, e21, -, -, -, -, -, -, -, -⟩ := idx_facts t
  show X (((cfg0.win 2).blk t).view.emb (ix2 p z)) = _
  refine congrArg X ?_
  funext a; apply Fin.ext
  match a with
  | ⟨0, _⟩ => show win0_2.index t (0 : Fin 2) * 4000 + 1 * p.val = t.val * 4000 + p.val; omega
  | ⟨1, _⟩ => show win0_2.index t (1 : Fin 2) * 1 + 1 * z.val = z.val; omega

theorem read8 (X : S100000x128.Idx → EReal) (t : Fin cfg0.N) (p : Fin 4000) (k : Fin 128) :
    ((cfg0.win 8).blk t).view.read (Elt Ideal) X (ix2 p k) = X (ix2 (nodeAt t p) k) := by
  obtain ⟨-, -, -, -, -, -, e80, e81, -, -, -, -, -, -⟩ := idx_facts t
  show X (((cfg0.win 8).blk t).view.emb (ix2 p k)) = _
  refine congrArg X ?_
  funext a; apply Fin.ext
  match a with
  | ⟨0, _⟩ => show win0_8.index t (0 : Fin 2) * 4000 + 1 * p.val = t.val * 4000 + p.val; omega
  | ⟨1, _⟩ => show win0_8.index t (1 : Fin 2) * 128 + 1 * k.val = k.val; omega

theorem read3 (X : S128x128.Idx → EReal) (t : Fin cfg0.N) (k j : Fin 128) :
    ((cfg0.win 3).blk t).view.read (Elt Ideal) X (ix2 k j) = X (ix2 k j) := by
  obtain ⟨-, -, -, -, -, -, -, -, e30, e31, -, -, -, -⟩ := idx_facts t
  show X (((cfg0.win 3).blk t).view.emb (ix2 k j)) = _
  refine congrArg X ?_
  funext a; apply Fin.ext
  match a with
  | ⟨0, _⟩ => show win0_3.index t (0 : Fin 2) * 128 + 1 * k.val = k.val; omega
  | ⟨1, _⟩ => show win0_3.index t (1 : Fin 2) * 128 + 1 * j.val = j.val; omega

theorem read4 (X : S128.Idx → EReal) (t : Fin cfg0.N) (j : Fin 128) :
    ((cfg0.win 4).blk t).view.read (Elt Ideal) X (ix1 j) = X (ix1 j) := by
  obtain ⟨-, -, -, -, -, -, -, -, -, -, e4, -, -, -⟩ := idx_facts t
  show X (((cfg0.win 4).blk t).view.emb (ix1 j)) = _
  refine congrArg X ?_
  funext a; apply Fin.ext
  match a with
  | ⟨0, _⟩ => show win0_4.index t (0 : Fin 1) * 128 + 1 * j.val = j.val; omega

theorem read5 (X : S1.Idx → EReal) (t : Fin cfg0.N) (z : Fin 1) :
    ((cfg0.win 5).blk t).view.read (Elt Ideal) X (ix1 z) = X (ix1 z) := by
  obtain ⟨-, -, -, -, -, -, -, -, -, -, -, e5, -, -⟩ := idx_facts t
  show X (((cfg0.win 5).blk t).view.emb (ix1 z)) = _
  refine congrArg X ?_
  funext a; apply Fin.ext
  match a with
  | ⟨0, _⟩ => show win0_5.index t (0 : Fin 1) * 1 + 1 * z.val = z.val; omega

theorem read6 (X : S128.Idx → EReal) (t : Fin cfg0.N) (j : Fin 128) :
    ((cfg0.win 6).blk t).view.read (Elt Ideal) X (ix1 j) = X (ix1 j) := by
  obtain ⟨-, -, -, -, -, -, -, -, -, -, -, -, e6, -⟩ := idx_facts t
  show X (((cfg0.win 6).blk t).view.emb (ix1 j)) = _
  refine congrArg X ?_
  funext a; apply Fin.ext
  match a with
  | ⟨0, _⟩ => show win0_6.index t (0 : Fin 1) * 128 + 1 * j.val = j.val; omega

theorem read7 (X : S128.Idx → EReal) (t : Fin cfg0.N) (j : Fin 128) :
    ((cfg0.win 7).blk t).view.read (Elt Ideal) X (ix1 j) = X (ix1 j) := by
  obtain ⟨-, -, -, -, -, -, -, -, -, -, -, -, -, e7⟩ := idx_facts t
  show X (((cfg0.win 7).blk t).view.emb (ix1 j)) = _
  refine congrArg X ?_
  funext a; apply Fin.ext
  match a with
  | ⟨0, _⟩ => show win0_7.index t (0 : Fin 1) * 128 + 1 * j.val = j.val; omega

/-! ## The arrays the region finds, by window -/

theorem Vw0 (c : Dev nD) : (V m c (Pipeline.arrRef spec0 0) : S100000x128.Idx → EReal) = aggV (m ((c : Thread nD τ).loc main_arg0)) (m ((c : Thread nD τ).loc main_arg1)) :=
  V_main_v38 m c
theorem Vw1 (c : Dev nD) : V m c (Pipeline.arrRef spec0 1) = m ((c : Thread nD τ).loc main_arg0) := V_main_arg0 m c
theorem Vw2 (c : Dev nD) : (V m c (Pipeline.arrRef spec0 2) : S100000x1.Idx → EReal) = disColV (m ((c : Thread nD τ).loc main_arg1)) :=
  V_main_v39 m c
theorem Vw3 (c : Dev nD) : V m c (Pipeline.arrRef spec0 3) = m ((c : Thread nD τ).loc main_arg2) := V_main_arg2 m c
theorem Vw4 (c : Dev nD) : V m c (Pipeline.arrRef spec0 4) = m ((c : Thread nD τ).loc main_arg3) := V_main_arg3 m c
theorem Vw5 (c : Dev nD) : V m c (Pipeline.arrRef spec0 5) = m ((c : Thread nD τ).loc main_arg4) := V_main_arg4 m c
theorem Vw6 (c : Dev nD) : V m c (Pipeline.arrRef spec0 6) = m ((c : Thread nD τ).loc main_arg5) := V_main_arg5 m c
theorem Vw7 (c : Dev nD) : V m c (Pipeline.arrRef spec0 7) = m ((c : Thread nD τ).loc main_arg6) := V_main_arg6 m c

/-! ## The blocks a point reads -/

theorem blk0 (c : Dev nD) (t : Fin cfg0.N) (p : Fin 4000) (k : Fin 128) :
    iblk m c 0 t (ix2 p k) = agg (m ((c : Thread nD τ).loc main_arg0)) (srcV (m ((c : Thread nD τ).loc main_arg1))) (dstV (m ((c : Thread nD τ).loc main_arg1))) (nodeAt t p) k := by
  unfold iblk
  rw [read0, Vw0, aggV_apply]

theorem blk1 (c : Dev nD) (t : Fin cfg0.N) (p : Fin 4000) (k : Fin 128) :
    iblk m c 1 t (ix2 p k) = m ((c : Thread nD τ).loc main_arg0) (ix2 (nodeAt t p) k) := by
  unfold iblk
  rw [read1, Vw1]

theorem blk2 (c : Dev nD) (t : Fin cfg0.N) (p : Fin 4000) :
    iblk m c 2 t (ix2 p (0 : Fin 1)) = dis (dstV (m ((c : Thread nD τ).loc main_arg1))) (nodeAt t p) := by
  unfold iblk
  rw [read2, Vw2, disColV_apply]

theorem blk3 (c : Dev nD) (t : Fin cfg0.N) (k j : Fin 128) : iblk m c 3 t (ix2 k j) = m ((c : Thread nD τ).loc main_arg2) (ix2 k j) := by
  unfold iblk
  rw [read3, Vw3]

theorem blk4 (c : Dev nD) (t : Fin cfg0.N) (j : Fin 128) : iblk m c 4 t (ix1 j) = m ((c : Thread nD τ).loc main_arg3) (ix1 j) := by
  unfold iblk
  rw [read4, Vw4]

theorem blk5 (c : Dev nD) (t : Fin cfg0.N) : iblk m c 5 t (ix1 (0 : Fin 1)) = m ((c : Thread nD τ).loc main_arg4) (ix1 (0 : Fin 1)) := by
  unfold iblk
  rw [read5, Vw5]

theorem blk6 (c : Dev nD) (t : Fin cfg0.N) (j : Fin 128) : iblk m c 6 t (ix1 j) = m ((c : Thread nD τ).loc main_arg5) (ix1 j) := by
  unfold iblk
  rw [read6, Vw6]

theorem blk7 (c : Dev nD) (t : Fin cfg0.N) (j : Fin 128) : iblk m c 7 t (ix1 j) = m ((c : Thread nD τ).loc main_arg6) (ix1 j) := by
  unfold iblk
  rw [read7, Vw7]

/-! ## What a point writes back, the cover, the array -/

/-- An unclipped block is written back whole. -/
theorem cut8 (t : Fin cfg0.N) (Y : Vec Ideal S4000x128 .f32) :
    ((cfg0.win 8).cut (grid0.coords t) Y : S4000x128.Idx → EReal) = Y := rfl

/-- The row of node 4000·t + p, from the blocks point t reads. -/
theorem row_eq (c : Dev nD) (t : Fin cfg0.N) (p : Fin 4000) :
    rowOfBlock (iblk m c 2 t) (iblk m c 0 t) (iblk m c 1 t) (iblk m c 3 t) (iblk m c 4 t) p
      = fun j => preK (m ((c : Thread nD τ).loc main_arg0)) (srcV (m ((c : Thread nD τ).loc main_arg1))) (dstV (m ((c : Thread nD τ).loc main_arg1))) (m ((c : Thread nD τ).loc main_arg2)) (m ((c : Thread nD τ).loc main_arg3)) (nodeAt t p) j := by
  funext j
  unfold rowOfBlock preK
  simp only [blk0, blk1, blk2, blk3, blk4]

/-- WHAT POINT t WRITES BACK is block t of `Gk`. -/
theorem flushed8_eq (c : Dev nD) (t : Fin cfg0.N) :
    (dats m 0 c).flushed 8 t = ((cfg0.win 8).blk t).view.read (Elt Ideal) (Gk m c) := by
  rw [Cert.KernelIdeal.Value.flushed8, cut8]
  funext y
  obtain ⟨p, q, rfl⟩ : ∃ (p : Fin 4000) (q : Fin 128), y = ix2 p q :=
    ⟨⟨(y 0).val, (y 0).isLt⟩, ⟨(y 1).val, (y 1).isLt⟩, funext fun a => by
      match a with | ⟨0, _⟩ => rfl | ⟨1, _⟩ => rfl⟩
  rw [read8, Gk_apply]
  refine (out8_apply (iblk m c 0 t) (iblk m c 1 t) (iblk m c 2 t) (iblk m c 3 t) (iblk m c 4 t) (iblk m c 5 t)
    (iblk m c 6 t) (iblk m c 7 t) p q).trans ?_
  unfold G
  rw [row_eq, blk5]
  simp only [blk6, blk7]

/-- An index of the array is in point t's block iff each coordinate is in the block's range on its axis. -/
theorem mem_blk8 (t : Fin cfg0.N) (i : S100000x128.Idx) :
    i ∈ ((cfg0.win 8).blk t).view.set ↔ ∀ a : Fin 2, win0_8.index t a * S4000x128.size a ≤ (i a).val
      ∧ (i a).val < win0_8.index t a * S4000x128.size a + S4000x128.size a := by
  show i ∈ ((View.whole main_v40).slice (win0_8.rect t)).set ↔ _
  rw [View.set_slice_whole, Rect.mem_set_unit]
  exact Iff.rfl

/-- THE COVER: row r of the result is in the block of point r / 4000. -/
theorem cover8 (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  have ht : (i 0).val / 4000 < 25 := by omega
  refine ⟨⟨(i 0).val / 4000, ht⟩, flush0_8 _, ?_⟩
  obtain ⟨-, -, -, -, -, -, e80, e81, -, -, -, -, -, -⟩ := idx_facts ⟨(i 0).val / 4000, ht⟩
  rw [mem_blk8]
  intro a
  match a with
  | ⟨0, _⟩ =>
    show win0_8.index ⟨(i 0).val / 4000, ht⟩ (0 : Fin 2) * 4000 ≤ (i 0).val
      ∧ (i 0).val < win0_8.index ⟨(i 0).val / 4000, ht⟩ (0 : Fin 2) * 4000 + 4000
    rw [e80]
    show (i 0).val / 4000 * 4000 ≤ (i 0).val ∧ (i 0).val < (i 0).val / 4000 * 4000 + 4000
    omega
  | ⟨1, _⟩ =>
    show win0_8.index ⟨(i 0).val / 4000, ht⟩ (1 : Fin 2) * 128 ≤ (i 1).val
      ∧ (i 1).val < win0_8.index ⟨(i 0).val / 4000, ht⟩ (1 : Fin 2) * 128 + 128
    rw [e81]
    omega

/-- THE ARRAY after the run is `Gk`. -/
theorem final8 (c : Dev nD) : (dats m 0 c).arrAt 8 cfg0.N = Gk m c :=
  (dats m 0 c).arrAt_eq_of_cover 8 (Gk m c) (fun t _ => flushed8_eq m c t) cover8

/-- The kernel's run, read: the result array is `Gk`, the arguments unchanged. -/
theorem run : θ_run defs (onTc (τ := τ) (main (F := Ideal))) ⟨m, fun _ => 0, ρ⟩ fun r => ∀ c : Dev nD,
      r.2.mem ((c : Thread nD τ).loc main_v40) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final8 m c), (h c).2⟩)
    (Cert.KernelIdeal.Value.run_blocks m ρ)

end Cert.KernelIdeal.Whole

end
-- ==== Proof.RefWeights.lean ====
/-
  The reference's node and edge weights, entry by entry.

  The reference appends to the 640000 edges one loop per node: its source and target lists are the edge list's two
  rows followed by the node numbers 0 … 99999. Position r of the joined lists is edge r for r < 640000 and the loop of node
  r − 640000 otherwise, so a sum over the 740000 positions is a sum over the edges plus a sum over the nodes. The degree
  of node n counts the positions whose target number is n: the edges that point at n, and its own loop — at least one,
  so the reference's guard "degree > 0, else 0" and its floor "max (degree, 10⁻¹²)" change nothing, and the node's
  weight is the inverse square root of the degree, the same number the kernel's host operations compute
  (`Cert.GcnSpec.dis`).
-/
import proofs.«122576_j79422535238247_2_alg».proof.Proof.RefReadP
import proofs.«122576_j79422535238247_2_alg».proof.Proof.LibVecIndex
import proofs.«122576_j79422535238247_2_alg».proof.Proof.LibJoinIota
import proofs.«122576_j79422535238247_2_alg».proof.Proof.LibGatherAt
import proofs.«122576_j79422535238247_2_alg».proof.Proof.Spec

noncomputable section

open scoped BigOperators

namespace Cert.ReferenceIdeal.RefSide

open Cert.ReferenceIdeal Cert.ReferenceIdeal.ReadP Idealize.ShloMosaic Idealize.ShloMosaic.ValueIdx Cert.GcnSpec Facts₀
open Idealize.ShloMosaic.JoinIota

/-! ## Positions of the joined lists -/

/-- Edge e's position. -/
def edgeAt (e : Fin 640000) : Fin 740000 := ⟨e.val, by omega⟩
/-- Node i's loop's position. -/
def loopAt (i : Fin 100000) : Fin 740000 := ⟨640000 + i.val, by omega⟩

/-- A sum over the positions is the sum over the edges plus the sum over the loops. -/
theorem sum_split {M : Type} [AddCommMonoid M] (f : Fin 740000 → M) :
    ∑ r : Fin 740000, f r = (∑ e : Fin 640000, f (edgeAt e)) + ∑ i : Fin 100000, f (loopAt i) := by
  have h : 640000 + 100000 = 740000 := rfl
  refine (Equiv.sum_comp (finCongr h) f).symm.trans ?_
  rw [Fin.sum_univ_add]
  refine congrArg₂ (· + ·) (Finset.sum_congr rfl fun e _ => congrArg f (Fin.ext rfl))
    (Finset.sum_congr rfl fun i _ => congrArg f (Fin.ext rfl))

variable (x1 : IVec S2x640000 32)

/-- The edges' source numbers and target numbers: the edge list's two rows. -/
abbrev srcR : IVec S640000 32 := val_main_v2 (F := Ideal) x1
abbrev dstR : IVec S640000 32 := val_main_v4 (F := Ideal) x1

theorem v6_edge (e : Fin 640000) : val_main_v6 (F := Ideal) x1 (ix1 (edgeAt e)) = srcR x1 (ix1 e) := by
  unfold val_main_v6
  exact concatenate_vec_apply_left _ _ concatenates_S640000_S100000_S740000_d0 (edgeAt e) e.isLt

theorem v7_edge (e : Fin 640000) : val_main_v7 (F := Ideal) x1 (ix1 (edgeAt e)) = dstR x1 (ix1 e) := by
  unfold val_main_v7
  exact concatenate_vec_apply_left _ _ concatenates_S640000_S100000_S740000_d0 (edgeAt e) e.isLt

theorem v6_loop (i : Fin 100000) : val_main_v6 (F := Ideal) x1 (ix1 (loopAt i)) = BitVec.ofNat 32 i.val := by
  have h1 : (loopAt i).val = 640000 + i.val := rfl
  have hi := i.isLt
  have hle : 640000 ≤ (loopAt i).val := by omega
  have hB : (loopAt i).val - 640000 < 100000 := by omega
  have hidx : (⟨(loopAt i).val - 640000, hB⟩ : Fin 100000) = i :=
    Fin.ext (by show (loopAt i).val - 640000 = i.val; omega)
  unfold val_main_v6
  refine (concatenate_vec_apply_right _ _ concatenates_S640000_S100000_S740000_d0 (loopAt i) hle hB).trans ?_
  rw [hidx]
  rfl

theorem v7_loop (i : Fin 100000) : val_main_v7 (F := Ideal) x1 (ix1 (loopAt i)) = BitVec.ofNat 32 i.val := by
  have h1 : (loopAt i).val = 640000 + i.val := rfl
  have hi := i.isLt
  have hle : 640000 ≤ (loopAt i).val := by omega
  have hB : (loopAt i).val - 640000 < 100000 := by omega
  have hidx : (⟨(loopAt i).val - 640000, hB⟩ : Fin 100000) = i :=
    Fin.ext (by show (loopAt i).val - 640000 = i.val; omega)
  unfold val_main_v7
  refine (concatenate_vec_apply_right _ _ concatenates_S640000_S100000_S740000_d0 (loopAt i) hle hB).trans ?_
  rw [hidx]
  rfl

/-- A node's number, read as a signed word, is the node's number. -/
theorem loop_toInt (i : Fin 100000) : (BitVec.ofNat 32 i.val).toInt = (i.val : Int) :=
  iota_vec_toInt (N := 100000) (by decide) i

/-- A node's number is not wrapped, and it names the node. -/
theorem nodeOf_loop (i : Fin 100000) : nodeOf (BitVec.ofNat 32 i.val) = i := by
  have ht := loop_toInt i
  have hi := i.isLt
  have hw : wrapNode (BitVec.ofNat 32 i.val) = BitVec.ofNat 32 i.val := by
    unfold wrapNode
    rw [if_neg]
    rw [BitVec.slt_iff_toInt_lt, ht]
    simp
  unfold nodeOf rowOf
  rw [hw]
  refine Fin.ext ?_
  show min (BitVec.ofNat 32 i.val).toInt.toNat (100000 - 1) = i.val
  rw [ht]
  omega

/-! ## The degree and the weight -/

theorem v9_apply (n : Fin 100000) : val_main_v9 (F := Ideal) (ix1 n) = zeroV := by
  unfold val_main_v9; rw [broadcastInDim_scalar_apply]; rfl
theorem v8_apply (r : Fin 740000) : val_main_v8 (F := Ideal) (ix1 r) = oneV := by
  unfold val_main_v8; rw [broadcastInDim_scalar_apply]; rfl
theorem v10_apply (r : Fin 740000) (z : Fin 1) :
    val_main_v10 (F := Ideal) x1 (ix2 r z) = val_main_v7 (F := Ideal) x1 (ix1 r) := by
  have hz : z = 0 := Subsingleton.elim _ _
  subst hz
  unfold val_main_v10
  exact broadcast_vec_column_apply bcast_S740000_S740000x1_0 _ r

/-- The reference's degree is the degree. -/
theorem v11_apply (n : Fin 100000) : val_main_v11 (F := Ideal) x1 (ix1 n) = deg (dstR x1) n := by
  unfold val_main_v11
  rw [Idealize.ShloMosaic.ScatterVec.host_scatterAdd_vec_apply scatter_S100000_S740000x1_S740000_n_0_0_1_wf
      scatter_S100000_S740000x1_S740000_n_0_0_1 rfl,
    sum_split]
  simp only [v9_apply, v8_apply, v10_apply, v7_edge, v7_loop, loop_toInt]
  rw [loops_sum (fun _ => oneV) n]
  unfold deg
  exact (add_assoc _ _ _).symm

/-- The reference's degree floor is at most one. -/
theorem tiny_le_one : tinyV ≤ 1 := by
  simp [Ideal.ofBits, Ideal.ieee, -EReal.coe_mul]
  norm_num
  exact_mod_cast (by norm_num : ((2305843 : ℝ) / 2305843009213693952) ≤ 1)

/-- The reference's weight is the weight: the guard and the floor change nothing at a degree of at least one. -/
theorem v17_apply (n : Fin 100000) : val_main_v17 (F := Ideal) x1 (ix1 n) = dis (dstR x1) n := by
  obtain ⟨r, hr, e⟩ := deg_real (dstR x1) n
  have h12 : val_main_v12 (F := Ideal) (ix1 n) = zeroV := by
    unfold val_main_v12; rw [broadcastInDim_scalar_apply]; rfl
  have h14 : val_main_v14 (F := Ideal) (ix1 n) = tinyV := by
    unfold val_main_v14; rw [broadcastInDim_scalar_apply]; rfl
  rw [val_main_v17_apply, val_main_v13_apply, val_main_v16_apply, val_main_v15_apply, v11_apply, h12, h14,
    Ideal.hostUnary_rsqrt_def, Ideal.maximumf_def]
  unfold dis
  rw [e, zeroV_eq]
  have hpos : (0 : EReal) < (r : EReal) := by exact_mod_cast (by linarith : (0 : ℝ) < r)
  have hone : (1 : EReal) ≤ (r : EReal) := by exact_mod_cast hr
  have hc : FloatOps.cmpf (F := Ideal) (φ := .f32) .ogt (r : EReal) 0 = 1#1 := by
    show Ideal.cmp .ogt (r : EReal) 0 = 1#1
    unfold Ideal.cmp
    simp [hpos]
  rw [hc, select_one, max_eq_left (tiny_le_one.trans hone)]

/-! ## The positions' weights -/

theorem wrap6_apply (r : Fin 740000) :
    val_main_v22 (F := Ideal) x1 (ix1 r) = wrapNode (val_main_v6 (F := Ideal) x1 (ix1 r)) := by
  unfold val_main_v22 val_main_v19 val_main_v21 val_main_v18 val_main_v20 val_main_c val_main_c_4 wrapNode
  exact wrap_index_apply 100000#32 bcast_S_S740000 (val_main_v6 (F := Ideal) x1) (ix1 r)

theorem wrap7_apply (r : Fin 740000) :
    val_main_v30 (F := Ideal) x1 (ix1 r) = wrapNode (val_main_v7 (F := Ideal) x1 (ix1 r)) := by
  unfold val_main_v30 val_main_v27 val_main_v29 val_main_v26 val_main_v28 val_main_c_5 val_main_c_6 wrapNode
  exact wrap_index_apply 100000#32 bcast_S_S740000 (val_main_v7 (F := Ideal) x1) (ix1 r)

theorem wrap6'_apply (r : Fin 740000) :
    val_main_v39 (F := Ideal) x1 (ix1 r) = wrapNode (val_main_v6 (F := Ideal) x1 (ix1 r)) := by
  unfold val_main_v39 val_main_v36 val_main_v38 val_main_v35 val_main_v37 val_main_c_7 val_main_c_8 wrapNode
  exact wrap_index_apply 100000#32 bcast_S_S740000 (val_main_v6 (F := Ideal) x1) (ix1 r)

/-- The weight of the node a position's source number names. -/
theorem v24_apply (r : Fin 740000) :
    val_main_v24 (F := Ideal) x1 (ix1 r) = dis (dstR x1) (nodeOf (val_main_v6 (F := Ideal) x1 (ix1 r))) := by
  have h23 : val_main_v23 (F := Ideal) x1 (ix2 r (0 : Fin 1)) = wrapNode (val_main_v6 (F := Ideal) x1 (ix1 r)) := by
    unfold val_main_v23
    exact (broadcast_vec_column_apply bcast_S740000_S740000x1_0 _ r).trans (wrap6_apply x1 r)
  unfold val_main_v24
  refine (Idealize.ShloMosaic.GatherAt.gather_vec_at (by decide)
    gather_S100000_S740000x1_S740000_n_0_n_n_0_1_1_wf (val_main_v17 (F := Ideal) x1) (val_main_v23 (F := Ideal) x1) r _ h23).trans ?_
  exact v17_apply x1 _

/-- The weight of the node a position's target number names. -/
theorem v32_apply (r : Fin 740000) :
    val_main_v32 (F := Ideal) x1 (ix1 r) = dis (dstR x1) (nodeOf (val_main_v7 (F := Ideal) x1 (ix1 r))) := by
  have h31 : val_main_v31 (F := Ideal) x1 (ix2 r (0 : Fin 1)) = wrapNode (val_main_v7 (F := Ideal) x1 (ix1 r)) := by
    unfold val_main_v31
    exact (broadcast_vec_column_apply bcast_S740000_S740000x1_0 _ r).trans (wrap7_apply x1 r)
  unfold val_main_v32
  refine (Idealize.ShloMosaic.GatherAt.gather_vec_at (by decide)
    gather_S100000_S740000x1_S740000_n_0_n_n_0_1_1_wf (val_main_v17 (F := Ideal) x1) (val_main_v31 (F := Ideal) x1) r _ h31).trans ?_
  exact v17_apply x1 _

/-- A position's weight. -/
theorem v33_apply (r : Fin 740000) :
    val_main_v33 (F := Ideal) x1 (ix1 r)
      = (dis (dstR x1) (nodeOf (val_main_v6 (F := Ideal) x1 (ix1 r))) * oneV)
        * dis (dstR x1) (nodeOf (val_main_v7 (F := Ideal) x1 (ix1 r))) := by
  rw [val_main_v33_apply, val_main_v25_apply, Ideal.mulf_def, Ideal.mulf_def, v24_apply, v8_apply, v32_apply]

end Cert.ReferenceIdeal.RefSide

end
-- ==== Proof.RefValue.lean ====
/-
  The reference's result, entry by entry: `Cert.GcnSpec.GR` of the arguments.

  The reference projects the features first (x = h · W), gathers the projected row of each position's source node,
  scales it by the position's weight and adds it to the row of the position's target number; over the edges this is the
  aggregate, over the loops it is the node's own projected row weighted dis · 1 · dis. Then the bias, the leaky
  rectifier and the normalisation of each row (`Cert.GcnSpec.lnRow`).
-/
import proofs.«122576_j79422535238247_2_alg».proof.Proof.RefWeights
import proofs.«122576_j79422535238247_2_alg».proof.Proof.LibScatterRows
import proofs.«122576_j79422535238247_2_alg».proof.Proof.LibGatherRows

noncomputable section

open scoped BigOperators

namespace Cert.ReferenceIdeal.RefSide

open Cert.ReferenceIdeal Cert.ReferenceIdeal.ReadP Idealize.ShloMosaic Idealize.ShloMosaic.ValueIdx Cert.GcnSpec Facts₀
open Idealize.ShloMosaic.JoinIota

variable (x0 : FVec Ideal S100000x128 .f32) (x1 : IVec S2x640000 32) (x2 : FVec Ideal S128x128 .f32)
  (x3 : FVec Ideal S128 .f32) (x4 : FVec Ideal S1 .f32) (x5 x6 : FVec Ideal S128 .f32)

/-! ## The convolution -/

/-- The projected features at (n, c). -/
theorem v0_apply (n : Fin 100000) (c : Fin 128) : val_main_v0 (F := Ideal) x0 x2 (ix2 n c) = proj x0 x2 n c := by
  rw [val_main_v0_apply]
  unfold proj
  refine Finset.sum_congr rfl fun k _ => ?_
  have el : lidx_main_v0 (ix2 n c) k = ix2 n k := funext fun a => Fin.ext (by
    match a with | ⟨0, _⟩ => rfl | ⟨1, _⟩ => rfl)
  have er : ridx_main_v0 (ix2 n c) k = ix2 k c := funext fun a => Fin.ext (by
    match a with | ⟨0, _⟩ => rfl | ⟨1, _⟩ => rfl)
  rw [el, er]

/-- The projected row of a position's source node. -/
theorem v41_apply (r : Fin 740000) (c : Fin 128) :
    val_main_v41 (F := Ideal) x0 x1 x2 (ix2 r c) = proj x0 x2 (nodeOf (val_main_v6 (F := Ideal) x1 (ix1 r))) c := by
  have h40 : val_main_v40 (F := Ideal) x1 (ix2 r (0 : Fin 1)) = wrapNode (val_main_v6 (F := Ideal) x1 (ix1 r)) := by
    unfold val_main_v40
    exact (broadcast_vec_column_apply bcast_S740000_S740000x1_0 _ r).trans (wrap6'_apply x1 r)
  unfold val_main_v41
  refine (Idealize.ShloMosaic.GatherAt.gather_rows_at (by decide)
    gather_S100000x128_S740000x1_S740000x128_1_0_n_n_0_1_1128_wf (val_main_v0 (F := Ideal) x0 x2)
    (val_main_v40 (F := Ideal) x1) r c _ h40).trans ?_
  exact v0_apply x0 x2 _ c

/-- A position's message. -/
theorem v43_apply (r : Fin 740000) (c : Fin 128) :
    val_main_v43 (F := Ideal) x0 x1 x2 (ix2 r c)
      = ((dis (dstR x1) (nodeOf (val_main_v6 (F := Ideal) x1 (ix1 r))) * oneV)
          * dis (dstR x1) (nodeOf (val_main_v7 (F := Ideal) x1 (ix1 r))))
        * proj x0 x2 (nodeOf (val_main_v6 (F := Ideal) x1 (ix1 r))) c := by
  rw [val_main_v43_apply, Ideal.mulf_def]
  have h42 : val_main_v42 (F := Ideal) x1 (ix2 r c) = val_main_v33 (F := Ideal) x1 (ix1 r) := by
    unfold val_main_v42
    rw [broadcast_column_apply bcast_S740000x1_S740000x128_0_1 _ r c]
    unfold val_main_v34
    exact broadcast_vec_column_apply bcast_S740000_S740000x1_0 _ r
  rw [h42, v33_apply, v41_apply]

/-- The reference's convolution plus bias at (n, j). -/
theorem v49_apply (n : Fin 100000) (j : Fin 128) :
    val_main_v49 (F := Ideal) x0 x1 x2 x3 (ix2 n j) = preR x0 (srcR x1) (dstR x1) x2 x3 n j := by
  rw [val_main_v49_apply, Ideal.addf_def]
  have h48 : val_main_v48 (F := Ideal) x3 (ix2 n j) = x3 (ix1 j) := by
    rw [val_main_v48_apply, val_main_v47_apply]
    exact congrArg x3 (funext fun a => Fin.ext (by match a with | ⟨0, _⟩ => rfl))
  have h44 : val_main_v44 (F := Ideal) (ix2 n j) = zeroV := by
    unfold val_main_v44; rw [broadcastInDim_scalar_apply]; rfl
  have h45 : ∀ r : Fin 740000, val_main_v45 (F := Ideal) x1 (ix2 r (0 : Fin 1)) = val_main_v7 (F := Ideal) x1 (ix1 r) := fun r => by
    unfold val_main_v45
    exact broadcast_vec_column_apply bcast_S740000_S740000x1_0 _ r
  unfold val_main_v46 preR
  rw [Idealize.ShloMosaic.ScatterRows.host_scatterAdd_rows_apply scatter_S100000x128_S740000x1_S740000x128_1_0_0_1_wf
      scatter_S100000x128_S740000x1_S740000x128_1_0_0_1 rfl,
    sum_split, h48, h44]
  simp only [h45, v43_apply, v6_edge, v7_edge, v6_loop, v7_loop, loop_toInt, nodeOf_loop]

/-! ## The row-wise tail -/

/-- The slope. -/
theorem v53_apply (i : S100000x128.Idx) : val_main_v53 (F := Ideal) x4 i = x4 (ix1 (0 : Fin 1)) := by
  unfold val_main_v53
  rw [broadcastInDim_scalar_apply]
  unfold val_main_v52
  exact shapeCast_apply x4 shapeCasts_S1_S_ ix0 (ix1 (0 : Fin 1)) rfl

/-- The rectified row. -/
theorem v55_apply (n : Fin 100000) (j : Fin 128) :
    val_main_v55 (F := Ideal) x0 x1 x2 x3 x4 (ix2 n j)
      = act (x4 (ix1 (0 : Fin 1))) (val_main_v49 (F := Ideal) x0 x1 x2 x3 (ix2 n j)) := by
  have h50 : val_main_v50 (F := Ideal) (ix2 n j) = zeroV := by
    unfold val_main_v50; rw [broadcastInDim_scalar_apply]; rfl
  rw [val_main_v55_apply, val_main_v51_apply, val_main_v54_apply, Ideal.mulf_def, h50, v53_apply]
  unfold act
  rfl

/-- The row the tail is applied to. -/
abbrev rowR (n : Fin 100000) : Fin 128 → EReal := fun j => val_main_v49 (F := Ideal) x0 x1 x2 x3 (ix2 n j)

/-- The row's mean, in the column the reference keeps it in. -/
theorem v59_apply (n : Fin 100000) (z : Fin 1) :
    val_main_v59 (F := Ideal) x0 x1 x2 x3 x4 (ix2 n z) = rowMean (x4 (ix1 (0 : Fin 1))) (rowR x0 x1 x2 x3 n) := by
  have hz : z = 0 := Subsingleton.elim _ _
  subst hz
  rw [val_main_v59_apply, Ideal.hostDivf_def]
  have h58 : val_main_v58 (F := Ideal) (ix2 n (0 : Fin 1)) = widthV := by
    unfold val_main_v58; rw [broadcastInDim_scalar_apply]; rfl
  have h57 : val_main_v57 (F := Ideal) x0 x1 x2 x3 x4 (ix2 n (0 : Fin 1)) = val_main_v56 (F := Ideal) x0 x1 x2 x3 x4 (ix1 n) := by
    unfold val_main_v57
    exact broadcast_vec_column_apply bcast_S100000_S100000x1_0 _ n
  rw [h58, h57, val_main_v56_apply, val_main_cst_11_apply, Ideal.ofBits_def, Ideal.ofBits_zero_f32, zero_add]
  unfold rowMean
  refine congrArg (Ideal.div · widthV) ?_
  refine Finset.sum_congr rfl fun k _ => ?_
  have ek : idx_main_v56 (ix1 n) k = ix2 n k := funext fun a => Fin.ext (by
    match a with | ⟨0, _⟩ => rfl | ⟨1, _⟩ => rfl)
  rw [ek, v55_apply]

/-- The centred row (the reference computes it twice). -/
theorem v61_apply (n : Fin 100000) (c : Fin 128) :
    val_main_v61 (F := Ideal) x0 x1 x2 x3 x4 (ix2 n c) = centred (x4 (ix1 (0 : Fin 1))) (rowR x0 x1 x2 x3 n) c := by
  rw [val_main_v61_apply, Ideal.subf_def]
  have h60 : val_main_v60 (F := Ideal) x0 x1 x2 x3 x4 (ix2 n c) = val_main_v59 (F := Ideal) x0 x1 x2 x3 x4 (ix2 n (0 : Fin 1)) := by
    unfold val_main_v60
    exact broadcast_column_apply bcast_S100000x1_S100000x128_0_1 _ n c
  rw [h60, v59_apply, v55_apply]
  unfold centred
  rfl

theorem v68_apply (n : Fin 100000) (c : Fin 128) :
    val_main_v68 (F := Ideal) x0 x1 x2 x3 x4 (ix2 n c) = centred (x4 (ix1 (0 : Fin 1))) (rowR x0 x1 x2 x3 n) c := by
  rw [val_main_v68_apply, Ideal.subf_def]
  have h67 : val_main_v67 (F := Ideal) x0 x1 x2 x3 x4 (ix2 n c) = val_main_v59 (F := Ideal) x0 x1 x2 x3 x4 (ix2 n (0 : Fin 1)) := by
    unfold val_main_v67
    exact broadcast_column_apply bcast_S100000x1_S100000x128_0_1 _ n c
  rw [h67, v59_apply, v55_apply]
  unfold centred
  rfl

/-- The row's variance, in the column the reference keeps it in. -/
theorem v66_apply (n : Fin 100000) (z : Fin 1) :
    val_main_v66 (F := Ideal) x0 x1 x2 x3 x4 (ix2 n z) = rowVar (x4 (ix1 (0 : Fin 1))) (rowR x0 x1 x2 x3 n) := by
  have hz : z = 0 := Subsingleton.elim _ _
  subst hz
  rw [val_main_v66_apply, Ideal.hostDivf_def]
  have h65 : val_main_v65 (F := Ideal) (ix2 n (0 : Fin 1)) = widthV := by
    unfold val_main_v65; rw [broadcastInDim_scalar_apply]; rfl
  have h64 : val_main_v64 (F := Ideal) x0 x1 x2 x3 x4 (ix2 n (0 : Fin 1)) = val_main_v63 (F := Ideal) x0 x1 x2 x3 x4 (ix1 n) := by
    unfold val_main_v64
    exact broadcast_vec_column_apply bcast_S100000_S100000x1_0 _ n
  rw [h65, h64, val_main_v63_apply, val_main_cst_13_apply, Ideal.ofBits_def, Ideal.ofBits_zero_f32, zero_add]
  unfold rowVar
  refine congrArg (Ideal.div · widthV) ?_
  refine Finset.sum_congr rfl fun k _ => ?_
  have ek : idx_main_v63 (ix1 n) k = ix2 n k := funext fun a => Fin.ext (by
    match a with | ⟨0, _⟩ => rfl | ⟨1, _⟩ => rfl)
  rw [ek, val_main_v62_apply, Ideal.mulf_def, v61_apply]

/-- THE REFERENCE'S RESULT at (n, c). -/
theorem v79_apply (n : Fin 100000) (c : Fin 128) :
    val_main_v79 (F := Ideal) x0 x1 x2 x3 x4 x5 x6 (ix2 n c) = GR x0 (srcR x1) (dstR x1) x2 x3 x4 x5 x6 n c := by
  rw [val_main_v79_apply, val_main_v76_apply, val_main_v73_apply, Ideal.addf_def, Ideal.mulf_def, Ideal.mulf_def]
  have h75 : val_main_v75 (F := Ideal) x5 (ix2 n c) = x5 (ix1 c) := by
    rw [val_main_v75_apply, val_main_v74_apply]
    exact congrArg x5 (funext fun a => Fin.ext (by match a with | ⟨0, _⟩ => rfl))
  have h78 : val_main_v78 (F := Ideal) x6 (ix2 n c) = x6 (ix1 c) := by
    rw [val_main_v78_apply, val_main_v77_apply]
    exact congrArg x6 (funext fun a => Fin.ext (by match a with | ⟨0, _⟩ => rfl))
  have h72 : val_main_v72 (F := Ideal) x0 x1 x2 x3 x4 (ix2 n c)
      = Ideal.rsqrt (rowVar (x4 (ix1 (0 : Fin 1))) (rowR x0 x1 x2 x3 n) + epsV) := by
    unfold val_main_v72
    rw [broadcast_column_apply bcast_S100000x1_S100000x128_0_1 _ n c]
    rw [val_main_v71_apply, val_main_v70_apply, Ideal.hostUnary_rsqrt_def, Ideal.addf_def]
    have h69 : val_main_v69 (F := Ideal) (ix2 n (0 : Fin 1)) = epsV := by
      unfold val_main_v69; rw [broadcastInDim_scalar_apply]; rfl
    rw [v66_apply, h69]
  rw [h75, h78, h72, v68_apply]
  unfold GR lnRow
  have hrow : rowR x0 x1 x2 x3 n = fun j => preR x0 (srcR x1) (dstR x1) x2 x3 n j :=
    funext fun j => v49_apply x0 x1 x2 x3 n j
  rw [hrow]

/-- The reference's result array is `GR` of the arguments. -/
theorem ref_value : val_main_v79 (F := Ideal) x0 x1 x2 x3 x4 x5 x6
    = fun i => GR x0 (srcR x1) (dstR x1) x2 x3 x4 x5 x6 (i 0) (i 1) := by
  funext i
  obtain ⟨n, c, rfl⟩ : ∃ (n : Fin 100000) (c : Fin 128), i = ix2 n c := ⟨i 0, i 1, eq_ix2 i⟩
  exact v79_apply x0 x1 x2 x3 x4 x5 x6 n c

end Cert.ReferenceIdeal.RefSide

end
-- ==== Proof.Finite.lean ====
/-
  From the precondition to real entries.

  The precondition says, array by array, that every entry's absolute value is below +∞, and joins the seven statements
  by "and". An extended real whose absolute value is below +∞ is a real number. Only the features and the weight matrix
  are needed as reals (the law that exchanges the two sums multiplies them through a sum).
-/
import proofs.«122576_j79422535238247_2_alg».proof.Pre_finite_inputs
import Idealize.ShloMosaic.PureOps.Ideal
import Idealize.ShloMosaic.Lib.ReduceAll
import Idealize.ShloMosaic.Lib.ValueIdx
import Idealize.ShloMosaic.Lib.IdealHost

noncomputable section

namespace Cert.FiniteInputs

open Idealize.ShloMosaic Idealize.ShloMosaic.ValueIdx Cert.Pre_finite_inputs

instance : Subsingleton S_.Idx := ⟨fun a b => funext fun d => d.elim0⟩

/-- An extended real whose absolute value is below +∞ is a real. -/
theorem real_of_abs_lt_inf (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => exfalso; simp [Ideal.cmp] at h
  | top => exfalso; simp [Ideal.cmp] at h
  | coe r => exact ⟨r, rfl⟩

variable [Cert.Pre_finite_inputs.Facts]

/-- One array's statement, read at an entry. -/
theorem real_of_all {S : Shape} {axes : List (Fin S.rank)} (x : FVec Ideal S .f32) (hb : S_.BroadcastsInDim S (![] : Fin 0 → Fin S.rank))
    (hr : S.ReducesTo axes S_) (hu : 0 < S_.numel)
    (e : Host.reduce IntOp.andi (cmpf .olt (Host.absf x) (broadcastInDim S ![] hb (constant (F := Ideal) S_ .f32 0x7F800000#32)))
      (constantI S_ 1 1#1) hr hu ix0 = 1#1) (i : S.Idx) : ∃ r : ℝ, x i = r := by
  have hi := Host.reduce_andi_all _ _ hr hu ix0 e i
  refine real_of_abs_lt_inf (x i) ?_
  have hc : broadcastInDim S ![] hb (constant (F := Ideal) S_ .f32 0x7F800000#32) i = Ideal.ofBits .f32 0x7F800000#32 := by
    rw [broadcastInDim_scalar_apply]; rfl
  have hi' : Ideal.cmp .olt (max (x i) (-(x i)))
      (broadcastInDim S ![] hb (constant (F := Ideal) S_ .f32 0x7F800000#32) i) = 1#1 := hi
  rw [hc] at hi'
  exact hi'

/-- THE PRECONDITION GIVES REAL FEATURES AND REAL WEIGHTS. -/
theorem reals_of_pre (x0 : FVec Ideal S100000x128 .f32) (x1 : IVec S2x640000 32) (x2 : FVec Ideal S128x128 .f32)
    (x3 : FVec Ideal S128 .f32) (x4 : FVec Ideal S1 .f32) (x5 x6 : FVec Ideal S128 .f32)
    (h : Cert.Pre_finite_inputs.fn (F := Ideal) x0 x1 x2 x3 x4 x5 x6 = fun _ => 1#1) :
    (∀ i, ∃ r : ℝ, x0 i = r) ∧ (∀ i, ∃ r : ℝ, x2 i = r) := by
  have h0 := congrFun h ix0
  dsimp only [fn, fn_part1, andi] at h0
  simp only [IntOp.andi_eq_one] at h0
  obtain ⟨⟨⟨⟨⟨h3, h7⟩, -⟩, -⟩, -⟩, -⟩ := h0
  exact ⟨fun i => real_of_all x0 _ _ _ h3 i, fun i => real_of_all x2 _ _ _ h7 i⟩

end Cert.FiniteInputs

end
-- ==== Proof.lean ====
/-
  A graph-convolution layer (self-looped, symmetrically normalised aggregation, projection, bias, leaky rectifier,
  normalisation over the 128 outputs) computed two ways, and the proof that the two programs agree on the extended reals
  for finite inputs.

  The kernel aggregates the neighbours' FEATURES on the host (a scatter-add over the 640000 edges), and its fused call,
  block of 4000 nodes by block, folds in each node's own loop, multiplies by the weight matrix and applies the row-wise
  tail. The reference multiplies every node's features by the weight matrix first and aggregates the PROJECTED rows over
  the edges and over one explicit loop per node. Both results are written as one function of the argument arrays, entry
  by entry (`Cert.GcnSpec.G`, read off the kernel's run in KernelHost / KernelBody / KernelValue; `Cert.GcnSpec.GR`, read
  off the reference's run in RefWeights / RefValue); the two functions agree when the features and the weights are real
  numbers (`Cert.GcnSpec.G_eq_GR`: the product with the weight matrix distributes over the aggregate, and every degree is
  at least one, so the reference's guards on the degree change nothing), which the precondition gives (Finite).
  The three frames are the generated ones; the kernel's idealization rewrote nothing, so `preserves` is trivial.
-/
import proofs.«122576_j79422535238247_2_alg».proof.Defs
import proofs.«122576_j79422535238247_2_alg».proof.Proof.Gen.Kernel
import proofs.«122576_j79422535238247_2_alg».proof.Proof.Gen.Kernel.Skeleton
import proofs.«122576_j79422535238247_2_alg».proof.Proof.Gen.Kernel.Launch
import proofs.«122576_j79422535238247_2_alg».proof.Proof.Gen.Kernel.Points
import proofs.«122576_j79422535238247_2_alg».proof.Proof.Gen.Kernel.Frame
import proofs.«122576_j79422535238247_2_alg».proof.Proof.Gen.KernelIdeal
import proofs.«122576_j79422535238247_2_alg».proof.Proof.Gen.KernelIdeal.Skeleton
import proofs.«122576_j79422535238247_2_alg».proof.Proof.Gen.KernelIdeal.Launch
import proofs.«122576_j79422535238247_2_alg».proof.Proof.Gen.KernelIdeal.Points
import proofs.«122576_j79422535238247_2_alg».proof.Proof.Gen.KernelIdeal.Frame
import proofs.«122576_j79422535238247_2_alg».proof.Proof.Gen.KernelIdeal.Value
import proofs.«122576_j79422535238247_2_alg».proof.Proof.Gen.ReferenceIdeal
import proofs.«122576_j79422535238247_2_alg».proof.Proof.RefRunP
import proofs.«122576_j79422535238247_2_alg».proof.Proof.RefReadP
import proofs.«122576_j79422535238247_2_alg».proof.Proof.Gen.Pre_finite_inputs
import proofs.«122576_j79422535238247_2_alg».proof.Proof.KernelValue
import proofs.«122576_j79422535238247_2_alg».proof.Proof.RefValue
import proofs.«122576_j79422535238247_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The two programs read the same two rows of the edge list. -/
theorem src_eq (x1 : IVec Cert.KernelIdeal.S2x640000 32) :
    Cert.KernelIdeal.HostSide.srcV x1 = Cert.ReferenceIdeal.RefSide.srcR x1 := rfl
theorem dst_eq (x1 : IVec Cert.KernelIdeal.S2x640000 32) :
    Cert.KernelIdeal.HostSide.dstV x1 = Cert.ReferenceIdeal.RefSide.dstR x1 := rfl

/-- Both programs end with the layer's result: the kernel's array is `G` of the arguments, the reference's is `GR` of
    arguments that agree with them, and for real features and weights the two are one function. -/
theorem algebraic : Cert.algebraic_KernelIdeal_ReferenceIdeal := by
  intro m ρ m' ρ' hpre hagree
  refine ⟨fun c => Cert.KernelIdeal.Whole.Gk m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6⟩ := hagree c
  obtain ⟨hh, hW⟩ := Cert.FiniteInputs.reals_of_pre _ _ _ _ _ _ _ (hpre c)
  rw [Cert.ReferenceIdeal.ReadP.val_main_v79_eq, Cert.ReferenceIdeal.RefSide.ref_value, a0, a1, a2, a3, a4, a5, a6]
  funext i
  show Cert.GcnSpec.GR _ _ _ _ _ _ _ _ (i 0) (i 1) = Cert.KernelIdeal.Whole.Gk m c i
  unfold Cert.KernelIdeal.Whole.Gk
  rw [src_eq, dst_eq]
  exact (Cert.GcnSpec.G_eq_GR _ _ _ _ _ _ _ _ hh hW (i 0) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
